-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S32x16384 : Shape := ⟨2, ![32, 16384]⟩
abbrev S32x256x128 : Shape := ⟨3, ![32, 256, 128]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S32x16384 32) (main_arg2 : FVec F S32x256x128 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x256x128 .f32 := Host.absf main_arg2
  let main_cst_0 : FVec F S_ .f32 := constant S_ .f32 0x7F800000#32
  let main_v5 : FVec F S32x256x128 .f32 := broadcastInDim S32x256x128 ![] bcast_S_S32x256x128 main_cst_0
  let main_v6 : IVec S32x256x128 1 := cmpf .olt main_v4 main_v5
  let main_c_1 : IVec S_ 1 := constantI S_ 1 1#1
  let main_v7 : IVec S_ 1 := (fun x v => Host.reduce IntOp.andi x v reducesTo_S32x256x128_S_d0_1_2 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S32x16384 : Shape := ⟨2, ![32, 16384]⟩
abbrev S32x256x128 : Shape := ⟨3, ![32, 256, 128]⟩
abbrev S16384 : Shape := ⟨1, ![16384]⟩
abbrev S32x16384x1 : Shape := ⟨3, ![32, 16384, 1]⟩
abbrev S_ : Shape := ⟨0, ![]⟩
abbrev S1 : Shape := ⟨1, ![1]⟩
abbrev S1x1x1 : Shape := ⟨3, ![1, 1, 1]⟩
abbrev S32x16384x128 : Shape := ⟨3, ![32, 16384, 128]⟩
abbrev S32x128x16384 : Shape := ⟨3, ![32, 128, 16384]⟩
abbrev S4096x16384 : Shape := ⟨2, ![4096, 16384]⟩
abbrev S8192x4096 : Shape := ⟨2, ![8192, 4096]⟩
abbrev S1x16384 : Shape := ⟨2, ![1, 16384]⟩
abbrev S8192x16384 : Shape := ⟨2, ![8192, 16384]⟩
abbrev S512x1024 : Shape := ⟨2, ![512, 1024]⟩
abbrev S1024x2048 : Shape := ⟨2, ![1024, 2048]⟩
abbrev S1x2048 : Shape := ⟨2, ![1, 2048]⟩
abbrev S512x2048 : Shape := ⟨2, ![512, 2048]⟩
abbrev S4x2048x16384 : Shape := ⟨3, ![4, 2048, 16384]⟩

abbrev nBuf : Space → Nat
  | .hbm => 35
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S32x16384, .i32⟩
  | .hbm, ⟨2, _⟩ => ⟨S32x256x128, .f32⟩
  | .hbm, ⟨3, _⟩ => ⟨S16384, .f32⟩
  | .hbm, ⟨4, _⟩ => ⟨S32x16384x1, .i32⟩
  | .hbm, ⟨5, _⟩ => ⟨S_, .i32⟩
  | .hbm, ⟨6, _⟩ => ⟨S32x16384x1, .i32⟩
  | .hbm, ⟨7, _⟩ => ⟨S32x16384x1, .i1⟩
  | .hbm, ⟨8, _⟩ => ⟨S_, .i32⟩
  | .hbm, ⟨9, _⟩ => ⟨S32x16384x1, .i32⟩
  | .hbm, ⟨10, _⟩ => ⟨S32x16384x1, .i32⟩
  | .hbm, ⟨11, _⟩ => ⟨S32x16384x1, .i32⟩
  | .hbm, ⟨12, _⟩ => ⟨S1, .i32⟩
  | .hbm, ⟨13, _⟩ => ⟨S_, .i32⟩
  | .hbm, ⟨14, _⟩ => ⟨S32x16384x1, .i32⟩
  | .hbm, ⟨15, _⟩ => ⟨S32x16384x1, .i1⟩
  | .hbm, ⟨16, _⟩ => ⟨S1x1x1, .i32⟩
  | .hbm, ⟨17, _⟩ => ⟨S32x16384x1, .i32⟩
  | .hbm, ⟨18, _⟩ => ⟨S32x16384x1, .i1⟩
  | .hbm, ⟨19, _⟩ => ⟨S32x16384x1, .i1⟩
  | .hbm, ⟨20, _⟩ => ⟨S_, .i1⟩
  | .hbm, ⟨21, _⟩ => ⟨S32x16384, .i1⟩
  | .hbm, ⟨22, _⟩ => ⟨S32x16384x128, .f32⟩
  | .hbm, ⟨23, _⟩ => ⟨S32x16384x128, .i1⟩
  | .hbm, ⟨24, _⟩ => ⟨S_, .f32⟩
  | .hbm, ⟨25, _⟩ => ⟨S32x16384x128, .f32⟩
  | .hbm, ⟨26, _⟩ => ⟨S32x16384x128, .f32⟩
  | .hbm, ⟨27, _⟩ => ⟨S32x128x16384, .f32⟩
  | .hbm, ⟨28, _⟩ => ⟨S4096x16384, .f32⟩
  | .hbm, ⟨29, _⟩ => ⟨S8192x4096, .f32⟩
  | .hbm, ⟨30, _⟩ => ⟨S8192x4096, .bf16⟩
  | .hbm, ⟨31, _⟩ => ⟨S4096x16384, .bf16⟩
  | .hbm, ⟨32, _⟩ => ⟨S1x16384, .f32⟩
  | .hbm, ⟨33, _⟩ => ⟨S8192x16384, .f32⟩
  | .hbm, ⟨34, _⟩ => ⟨S4x2048x16384, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S32x16384_S32x16384x1_0_1 : S32x16384.BroadcastsInDim S32x16384x1 (![0, 1] : Fin 2 → Fin S32x16384x1.rank)
  bcast_S_S32x16384x1 : S_.BroadcastsInDim S32x16384x1 (![] : Fin 0 → Fin S32x16384x1.rank)
  bcast_S1_S1x1x1_2 : S1.BroadcastsInDim S1x1x1 (![2] : Fin 1 → Fin S1x1x1.rank)
  bcast_S1x1x1_S32x16384x1_0_1_2 : S1x1x1.BroadcastsInDim S32x16384x1 (![0, 1, 2] : Fin 3 → Fin S32x16384x1.rank)
  reducesTo_S32x16384x1_S32x16384_d2 : S32x16384x1.ReducesTo [2] S32x16384
  h_S_ : 0 < S_.numel
  bcast_S32x16384_S32x16384x128_0_1 : S32x16384.BroadcastsInDim S32x16384x128 (![0, 1] : Fin 2 → Fin S32x16384x128.rank)
  bcast_S_S32x16384x128 : S_.BroadcastsInDim S32x16384x128 (![] : Fin 0 → Fin S32x16384x128.rank)
  transposes_S32x16384x128_S32x128x16384_0_2_1 : S32x16384x128.Transposes [0, 2, 1] S32x128x16384
  shapeCasts_S32x128x16384_S4096x16384 : S32x128x16384.ShapeCasts S4096x16384
  shapeCasts_S4x2048x4096_S8192x4096 : S4x2048x4096.ShapeCasts S8192x4096
  bitsLt_bf16_f32 : FTy.bits .bf16 < FTy.bits .f32
  shapeCasts_S16384_S1x16384 : S16384.ShapeCasts S1x16384
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x16384_S4x2048x16384 : S8192x16384.ShapeCasts S4x2048x16384
  gather_S32x256x128_S32x16384x1_S32x16384x128_2_1_0_0_1_2_11128_wf : GatherDims.WF S32x256x128 S32x16384x1 S32x16384x128 [2] [1] [0] [1] [0] 2 ![1, 1, 128]
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .bf16 = 32 ∨ (Rect.block (s := S8192x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x16384.size a
  hwx0_1 : ∀ i : grid0.Coords, EltTy.bits .bf16 = 32 ∨ (Rect.block (s := S4096x16384) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x16384.size a
  hwx0_3 : ∀ i : grid0.Coords, EltTy.bits .f32 = 32 ∨ (Rect.block (s := S8192x16384) S512x2048.size (cc0_transform_3 i) (hinb0_3 i)).WholeWords (EltTy.packing .f32)

variable [Facts₀]

def gather_S32x256x128_S32x16384x1_S32x16384x128_2_1_0_0_1_2_11128 : GatherDims S32x256x128 S32x16384x1 S32x16384x128 where
  offsetDims := [2]
  collapsedSliceDims := [1]
  operandBatchingDims := [0]
  startIndicesBatchingDims := [0]
  startIndexMap := [1]
  indexVectorDim := 2
  sliceSizes := ![1, 1, 128]
  wf := gather_S32x256x128_S32x16384x1_S32x16384x128_2_1_0_0_1_2_11128_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S32x16384 : Shape := ⟨2, ![32, 16384]⟩
abbrev S32x256x128 : Shape := ⟨3, ![32, 256, 128]⟩
abbrev S16384 : Shape := ⟨1, ![16384]⟩
abbrev S32x16384x1 : Shape := ⟨3, ![32, 16384, 1]⟩
abbrev S_ : Shape := ⟨0, ![]⟩
abbrev S1 : Shape := ⟨1, ![1]⟩
abbrev S1x1x1 : Shape := ⟨3, ![1, 1, 1]⟩
abbrev S32x16384x128 : Shape := ⟨3, ![32, 16384, 128]⟩
abbrev S16384x32x128 : Shape := ⟨3, ![16384, 32, 128]⟩
abbrev S16384x4096 : Shape := ⟨2, ![16384, 4096]⟩
abbrev S4x2048x16384 : Shape := ⟨3, ![4, 2048, 16384]⟩
abbrev S1x1x16384 : Shape := ⟨3, ![1, 1, 16384]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S32x16384, .i32⟩
  | .hbm, ⟨2, _⟩ => ⟨S32x256x128, .f32⟩
  | .hbm, ⟨3, _⟩ => ⟨S16384, .f32⟩
  | .hbm, ⟨4, _⟩ => ⟨S32x16384x1, .i32⟩
  | .hbm, ⟨5, _⟩ => ⟨S_, .i32⟩
  | .hbm, ⟨6, _⟩ => ⟨S32x16384x1, .i32⟩
  | .hbm, ⟨7, _⟩ => ⟨S32x16384x1, .i1⟩
  | .hbm, ⟨8, _⟩ => ⟨S_, .i32⟩
  | .hbm, ⟨9, _⟩ => ⟨S32x16384x1, .i32⟩
  | .hbm, ⟨10, _⟩ => ⟨S32x16384x1, .i32⟩
  | .hbm, ⟨11, _⟩ => ⟨S32x16384x1, .i32⟩
  | .hbm, ⟨12, _⟩ => ⟨S1, .i32⟩
  | .hbm, ⟨13, _⟩ => ⟨S_, .i32⟩
  | .hbm, ⟨14, _⟩ => ⟨S32x16384x1, .i32⟩
  | .hbm, ⟨15, _⟩ => ⟨S32x16384x1, .i1⟩
  | .hbm, ⟨16, _⟩ => ⟨S1x1x1, .i32⟩
  | .hbm, ⟨17, _⟩ => ⟨S32x16384x1, .i32⟩
  | .hbm, ⟨18, _⟩ => ⟨S32x16384x1, .i1⟩
  | .hbm, ⟨19, _⟩ => ⟨S32x16384x1, .i1⟩
  | .hbm, ⟨20, _⟩ => ⟨S_, .i1⟩
  | .hbm, ⟨21, _⟩ => ⟨S32x16384, .i1⟩
  | .hbm, ⟨22, _⟩ => ⟨S32x16384x128, .f32⟩
  | .hbm, ⟨23, _⟩ => ⟨S32x16384x128, .i1⟩
  | .hbm, ⟨24, _⟩ => ⟨S_, .f32⟩
  | .hbm, ⟨25, _⟩ => ⟨S32x16384x128, .f32⟩
  | .hbm, ⟨26, _⟩ => ⟨S32x16384x128, .f32⟩
  | .hbm, ⟨27, _⟩ => ⟨S16384x32x128, .f32⟩
  | .hbm, ⟨28, _⟩ => ⟨S16384x4096, .f32⟩
  | .hbm, ⟨29, _⟩ => ⟨S4x2048x16384, .f32⟩
  | .hbm, ⟨30, _⟩ => ⟨S1x1x16384, .f32⟩
  | .hbm, ⟨31, _⟩ => ⟨S4x2048x16384, .f32⟩
  | .hbm, ⟨32, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  bcast_S32x16384_S32x16384x1_0_1 : S32x16384.BroadcastsInDim S32x16384x1 (![0, 1] : Fin 2 → Fin S32x16384x1.rank)
  bcast_S_S32x16384x1 : S_.BroadcastsInDim S32x16384x1 (![] : Fin 0 → Fin S32x16384x1.rank)
  bcast_S1_S1x1x1_2 : S1.BroadcastsInDim S1x1x1 (![2] : Fin 1 → Fin S1x1x1.rank)
  bcast_S1x1x1_S32x16384x1_0_1_2 : S1x1x1.BroadcastsInDim S32x16384x1 (![0, 1, 2] : Fin 3 → Fin S32x16384x1.rank)
  reducesTo_S32x16384x1_S32x16384_d2 : S32x16384x1.ReducesTo [2] S32x16384
  h_S_ : 0 < S_.numel
  bcast_S32x16384_S32x16384x128_0_1 : S32x16384.BroadcastsInDim S32x16384x128 (![0, 1] : Fin 2 → Fin S32x16384x128.rank)
  bcast_S_S32x16384x128 : S_.BroadcastsInDim S32x16384x128 (![] : Fin 0 → Fin S32x16384x128.rank)
  transposes_S32x16384x128_S16384x32x128_1_0_2 : S32x16384x128.Transposes [1, 0, 2] S16384x32x128
  shapeCasts_S16384x32x128_S16384x4096 : S16384x32x128.ShapeCasts S16384x4096
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  gather_S32x256x128_S32x16384x1_S32x16384x128_2_1_0_0_1_2_11128_wf : GatherDims.WF S32x256x128 S32x16384x1 S32x16384x128 [2] [1] [0] [1] [0] 2 ![1, 1, 128]
  dot_S4x2048x4096_S16384x4096_S4x2048x16384_2_1_01_0_n_n_wf : DotDims.WF S4x2048x4096 S16384x4096 S4x2048x16384 [2] [1] [0, 1] [0] [] []

variable [Facts₀]

def gather_S32x256x128_S32x16384x1_S32x16384x128_2_1_0_0_1_2_11128 : GatherDims S32x256x128 S32x16384x1 S32x16384x128 where
  offsetDims := [2]
  collapsedSliceDims := [1]
  operandBatchingDims := [0]
  startIndicesBatchingDims := [0]
  startIndexMap := [1]
  indexVectorDim := 2
  sliceSizes := ![1, 1, 128]
  wf := gather_S32x256x128_S32x16384x1_S32x16384x128_2_1_0_0_1_2_11128_wf
def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Pieces.lean ====
/-
  What each control case of the kernel body leaves behind, as a pure function of what it loaded.

  The body keeps a running accumulator in a scratch block of 512 x 2048. At the first step of a contraction sweep it
  overwrites the accumulator with zeros and then adds the product of its two operand blocks; at the middle steps it adds the
  product to what the step before left; at the last step it does the same and then writes the accumulator plus the bias row
  to the output block. Each store covers its whole block, so what a block holds afterwards is the stored value itself.
-/
import proofs.«166825_j80917183856748_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- A middle step: the accumulator becomes what it held plus the product of the two operand blocks. -/
theorem acc_middle (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x1024 .bf16) (x1 : Vec F S1024x2048 .bf16) (x2 : Vec F S1x2048 .f32) (xs0 : Vec F S512x2048 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg7.read_unread, harg3.read_unread, harg4.read_unread,
    View.ld_unit_zero (S := S512x2048) hz, View.ld_unit_zero (S := S512x1024) hz, View.ld_unit_zero (S := S1024x2048) hz]

/-- The last step, the accumulator: as at a middle step. -/
theorem acc_last (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x1024 .bf16) (x1 : Vec F S1024x2048 .bf16) (x2 : Vec F S1x2048 .f32) (xs0 : Vec F S512x2048 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread,
    View.ld_unit_zero (S := S512x2048) hz, View.ld_unit_zero (S := S512x1024) hz, View.ld_unit_zero (S := S1024x2048) hz]

/-- The last step, the output block: the new accumulator plus the bias row. -/
theorem out_last (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x1024 .bf16) (x1 : Vec F S1024x2048 .bf16) (x2 : Vec F S1x2048 .f32) (xs0 : Vec F S512x2048 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words

  rw [View.canon_unit_zero hz]
  simp only [View.readAt_eq_ld, harg7.read_unread, harg3.read_unread, harg4.read_unread, harg5.read_unread,
    View.ld_unit_zero (S := S512x2048) hz, View.ld_unit_zero (S := S512x1024) hz, View.ld_unit_zero (S := S1024x2048) hz,
    View.ld_unit_zero (S := S1x2048) hz]
  rw [View.readCov_unit_zero (S := S512x2048) _ hz]

/-- The first step: the accumulator becomes zero plus the product of the two operand blocks. -/
theorem acc_first (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x1024 .bf16) (x1 : Vec F S1024x2048 .bf16) (x2 : Vec F S1x2048 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words

  rw [View.canon_cons_unit_zero (S := S512x2048) hz, View.readCov_unit_zero (S := S512x2048) _ hz]
  simp only [View.readAt_eq_ld, harg3.read_unread, harg4.read_unread,
    View.ld_unit_zero (S := S512x1024) hz, View.ld_unit_zero (S := S1024x2048) hz]

end Cert.KernelIdeal.Pieces
end
-- ==== Proof.Steps.lean ====
/-
  What each grid point leaves, in terms of what the point before left.

  The contraction index is the fastest grid axis, so the points of one sweep are four consecutive points `4s, …, 4s + 3`.
  At the first of them the accumulator becomes zero plus the product of that point's operand blocks; at each later one it
  becomes what the point before left plus the product of this point's blocks; and at the last one the output block is the
  new accumulator plus the bias row's block.
-/
import proofs.«166825_j80917183856748_1_alg».proof.Proof.Pieces

noncomputable section

open Idealize.ShloMosaic Idealize.ShloMosaic.TcCoe Idealize.SL.Sem

namespace Cert.KernelIdeal.Steps
open Cert.KernelIdeal Cert.KernelIdeal.Gen
variable {F : FTy → Type} [FloatOps F]
variable (m : (ℓ : Loc nD τ sig) → Buf (Elt F) ℓ)

/-- The accumulator after the point before `t`. -/
abbrev prevAcc (c : Dev nD) (t : Fin cfg0.N) : Vec F S512x2048 .f32 :=
  (outsAt0 m c (t.val - 1) (Nat.lt_of_le_of_lt (Nat.sub_le _ _) t.isLt)).2

/-- At the first point of a sweep. -/
theorem acc_first (c : Dev nD) (t : Fin cfg0.N) (h0 : t.val % 4 = 0) :
    (outsAt0 m c t.val t.isLt).2 = k0_pay2 (k0_pay1 (F := F)) (iblk m c 0 t) (iblk m c 1 t) := by
  have h1 : ¬t.val % 4 = 3 := by omega
  rw [outsAt0_A m c t h0 h1]
  dsimp only
  exact Pieces.acc_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At a later point of a sweep. -/
theorem acc_next (c : Dev nD) (t : Fin cfg0.N) (h0 : ¬t.val % 4 = 0) :
    (outsAt0 m c t.val t.isLt).2 = k0_pay2 (prevAcc m c t) (iblk m c 0 t) (iblk m c 1 t) := by
  by_cases h1 : t.val % 4 = 3
  · rw [outsAt0_C m c t h0 h1]
    dsimp only
    exact Pieces.acc_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (prevAcc m c t)
  · rw [outsAt0_B m c t h0 h1]
    dsimp only
    exact Pieces.acc_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (prevAcc m c t)

/-- At the last point of a sweep, the output block. -/
theorem out_last (c : Dev nD) (t : Fin cfg0.N) (h1 : t.val % 4 = 3) :
    (outsAt0 m c t.val t.isLt).1 = k0_pay3 (outsAt0 m c t.val t.isLt).2 (iblk m c 2 t) := by
  have h0 : ¬t.val % 4 = 0 := by omega
  rw [acc_next m c t h0, outsAt0_C m c t h0 h1]
  dsimp only
  exact Pieces.out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (prevAcc m c t)

end Cert.KernelIdeal.Steps
end
-- ==== Proof.LibDotPlain.lean ====
/-
  A plain matrix product read at an entry.

  For dimension numbers that contract the left operand's axis 1 with the right operand's axis 0 and have no batch axes
  (an [M, K] matrix times a [K, N] matrix), the sum over the contraction shape that both a kernel's matrix product into
  a zero accumulator and a host dot product are, at the extended reals, is the textbook sum over k < K of
  x(p, k) · w(k, q): the left operand's index at output entry (p, q) and contraction position k is (p, k), the right
  operand's is (k, q), and a one-axis contraction position is its one coordinate.
-/
import Idealize.ShloMosaic.Lib.ValueIdx
import Idealize.ShloMosaic.PureOps.Ideal.Laws

noncomputable section

namespace Idealize.ShloMosaic.DotPlain

open Idealize.ShloMosaic Idealize.ShloMosaic.ValueIdx

variable {M K N : Nat} (D : DotDims ⟨2, ![M, K]⟩ ⟨2, ![K, N]⟩ ⟨2, ![M, N]⟩)

/-- The left operand's row coordinate is the output entry's row. -/
theorem lhs_row (hln : D.lhsNonContracting = [0]) (hlb : D.lhsBatch = []) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

/-- The right operand's column coordinate is the output entry's column. -/
theorem rhs_col (hln : D.lhsNonContracting = [0]) (hrn : D.rhsNonContracting = [1]) (hlb : D.lhsBatch = []) (hrb : D.rhsBatch = [])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

/-- THE SUM: over the contraction shape it is the sum over `k < K` of `x (p, k) · w (k, q)`. -/
theorem sum_eq (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = K)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hln hlb _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhs_col D hln hrn hlb hrb _ _)
  rw [el, er]

end Idealize.ShloMosaic.DotPlain

end
-- ==== Proof.Payload.lean ====
/-
  The body's three stored values read at an entry, over the extended reals.

  The zero block is 0 everywhere. One accumulation step adds to the accumulator's entry (p, q) the sum over the 1024
  positions k of this step's block of the contraction of x(p, k) · w(k, q): the matrix product into a zero accumulator is
  exactly that sum, with no rounding and no order. The output block is the accumulator plus the bias row, the row
  repeated over the 512 rows.
-/
import proofs.«166825_j80917183856748_1_alg».proof.Proof.Gen.KernelIdeal.Skeleton
import proofs.«166825_j80917183856748_1_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The zero block is zero at every entry. -/
theorem zero_apply (j : S512x2048.Idx) : k0_pay1 (F := Ideal) j = 0 := by
  unfold k0_pay1
  rw [shapeCast_self]
  exact Ideal.ofBits_zero_f32

/-- One accumulation step at entry (p, q). -/
theorem step_apply (a : Vec Ideal S512x2048 .f32) (x : Vec Ideal S512x1024 .bf16) (w : Vec Ideal S1024x2048 .bf16)
    (p : Fin 512) (q : Fin 2048) :
    k0_pay2 a x w (ix2 p q) = a (ix2 p q) + ∑ k : Fin 1024, x (ix2 p k) * w (ix2 k q) := by
  unfold k0_pay2
  rw [shapeCast_self, shapeCast_self, shapeCast_self]
  refine (addf_apply _ _ _).trans ?_
  refine congrArg (a (ix2 p q) + ·) ?_
  simp only [matmul]
  refine (Ideal.matmul_constant_zero_apply (φ₁ := .bf16) (φ₂ := .bf16) dot_S512x1024_S1024x2048_S512x2048_1_0_0_1_n_n none x w (ix2 p q)).trans ?_
  exact DotPlain.sum_eq dot_S512x1024_S1024x2048_S512x2048_1_0_0_1_n_n rfl rfl rfl rfl rfl rfl rfl rfl x w p q

/-- The output block at entry (p, q): the accumulator there plus the bias row at column q. -/
theorem out_apply (a : Vec Ideal S512x2048 .f32) (b : Vec Ideal S1x2048 .f32) (p : Fin 512) (q : Fin 2048) :
    k0_pay3 a b (ix2 p q) = a (ix2 p q) + b (ix2 (0 : Fin 1) q) := by
  unfold k0_pay3
  rw [shapeCast_self]
  refine (addf_apply _ _ _).trans ?_
  exact congrArg (a (ix2 p q) + ·) (broadcastTo_1b_ab_apply b _ p q)

end Cert.KernelIdeal.Payload

end
-- ==== Proof.Blocks.lean ====
/-
  Which entries of the whole arrays a grid point's blocks are.

  The grid is 16 x 8 x 4, run in row-major order, so point `t` has row block `t / 32`, column block `t / 4 % 8` and
  contraction block `t % 4`. The left operand's 512 x 1024 block sits at (row block, contraction block), the right operand's
  1024 x 2048 block at (contraction block, column block), the bias row's 1 x 2048 block at (0, column block) and the output's
  512 x 2048 block at (row block, column block). An entry of a block is the array's entry at block index times block size
  plus the coordinate inside the block, axis by axis.
-/
import proofs.«166825_j80917183856748_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks
open Cert.KernelIdeal Cert.KernelIdeal.Gen Idealize.ShloMosaic.ValueIdx
variable {F : FTy → Type} [FloatOps F]
variable (m : (ℓ : Loc nD τ sig) → Buf (Elt F) ℓ)

/-- The windows' block indices at every point, decided over the 512 points. -/
theorem idx_facts : ∀ t : Fin cfg0.N,
    win0_0.index t 0 = t.val / 32 ∧ win0_0.index t 1 = t.val % 4 ∧
    win0_1.index t 0 = t.val % 4 ∧ win0_1.index t 1 = t.val / 4 % 8 ∧
    win0_2.index t 0 = 0 ∧ win0_2.index t 1 = t.val / 4 % 8 ∧
    win0_3.index t 0 = t.val / 32 ∧ win0_3.index t 1 = t.val / 4 % 8 :=
  (by decide +kernel : ∀ t : Fin grid0.N,
    win0_0.index t 0 = t.val / 32 ∧ win0_0.index t 1 = t.val % 4 ∧
    win0_1.index t 0 = t.val % 4 ∧ win0_1.index t 1 = t.val / 4 % 8 ∧
    win0_2.index t 0 = 0 ∧ win0_2.index t 1 = t.val / 4 % 8 ∧
    win0_3.index t 0 = t.val / 32 ∧ win0_3.index t 1 = t.val / 4 % 8)

/-- The left operand's block at a point, at (p, k): row `t/32 · 512 + p`, contraction position `t%4 · 1024 + k`. -/
theorem lhs_block (c : Dev nD) (t : Fin cfg0.N) (p : Fin 512) (k : Fin 1024) (r : Fin 8192) (j : Fin 4096)
    (hr : r.val = t.val / 32 * 512 + p.val) (hj : j.val = t.val % 4 * 1024 + k.val) :
    (iblk m c 0 t : Vec F S512x1024 .bf16) (ix2 p k) = (V m c main_v5 : Vec F S8192x4096 .bf16) (ix2 r j) := by
  unfold iblk
  rw [View.read_apply]
  show V m c main_v5 _ = V m c main_v5 _
  congr 1
  funext a
  apply Fin.ext
  match a with
  | ⟨0, _⟩ => show win0_0.index t 0 * 512 + 1 * p.val = r.val; rw [(idx_facts t).1, hr]; omega
  | ⟨1, _⟩ => show win0_0.index t 1 * 1024 + 1 * k.val = j.val; rw [(idx_facts t).2.1, hj]; omega

/-- The right operand's block at a point, at (k, q): contraction position `t%4 · 1024 + k`, column `t/4%8 · 2048 + q`. -/
theorem rhs_block (c : Dev nD) (t : Fin cfg0.N) (k : Fin 1024) (q : Fin 2048) (j : Fin 4096) (v : Fin 16384)
    (hj : j.val = t.val % 4 * 1024 + k.val) (hv : v.val = t.val / 4 % 8 * 2048 + q.val) :
    (iblk m c 1 t : Vec F S1024x2048 .bf16) (ix2 k q) = (V m c main_v6 : Vec F S4096x16384 .bf16) (ix2 j v) := by
  unfold iblk
  rw [View.read_apply]
  show V m c main_v6 _ = V m c main_v6 _
  congr 1
  funext a
  apply Fin.ext
  match a with
  | ⟨0, _⟩ => show win0_1.index t 0 * 1024 + 1 * k.val = j.val; rw [(idx_facts t).2.2.1, hj]; omega
  | ⟨1, _⟩ => show win0_1.index t 1 * 2048 + 1 * q.val = v.val; rw [(idx_facts t).2.2.2.1, hv]; omega

/-- The bias row's block at a point, at (0, q): column `t/4%8 · 2048 + q`. -/
theorem bias_block (c : Dev nD) (t : Fin cfg0.N) (q : Fin 2048) (v : Fin 16384)
    (hv : v.val = t.val / 4 % 8 * 2048 + q.val) :
    (iblk m c 2 t : Vec F S1x2048 .f32) (ix2 (0 : Fin 1) q) = (V m c main_v7 : Vec F S1x16384 .f32) (ix2 (0 : Fin 1) v) := by
  unfold iblk
  rw [View.read_apply]
  show V m c main_v7 _ = V m c main_v7 _
  congr 1
  funext a
  apply Fin.ext
  match a with
  | ⟨0, _⟩ => show win0_2.index t 0 * 1 + 1 * 0 = 0; rw [(idx_facts t).2.2.2.2.1]
  | ⟨1, _⟩ => show win0_2.index t 1 * 2048 + 1 * q.val = v.val; rw [(idx_facts t).2.2.2.2.2.1, hv]; omega

end Cert.KernelIdeal.Blocks
end
-- ==== Proof.BlockSum.lean ====
/-
  A sum over 4096 terms taken in four consecutive blocks of 1024.

  The contraction of the matrix product is accumulated one block of 1024 terms at a time: after step `k` (counting from
  zero) the accumulator holds the sum of blocks `0 … k`. On the extended reals addition is commutative and associative
  (with the convention `⊥ + ⊤ = ⊥`), so the four block sums added in order are the sum over all 4096 terms, whatever the
  terms are: no finiteness is used.
-/
import Mathlib.Data.EReal.Basic
import Mathlib.Algebra.BigOperators.Fin
import Mathlib.Algebra.BigOperators.Intervals

namespace Cert.BlockSum

open Finset

variable {M : Type*} [AddCommMonoid M]

/-- Term number `j` of block `kb`: position `kb · 1024 + j` of the contraction (reduced mod 4096 so that it is a
    position for every natural `kb`; for `kb < 4` the reduction does nothing). -/
def pos (kb : ℕ) (j : Fin 1024) : Fin 4096 := ⟨(kb * 1024 + j.val) % 4096, Nat.mod_lt _ (by norm_num)⟩

theorem pos_val (kb : ℕ) (hkb : kb < 4) (j : Fin 1024) : (pos kb j).val = kb * 1024 + j.val := by
  have := j.isLt
  show (kb * 1024 + j.val) % 4096 = _
  omega

/-- The sum of block `kb`. -/
def block (f : Fin 4096 → M) (kb : ℕ) : M := ∑ j : Fin 1024, f (pos kb j)

/-- The accumulator after step `k`: blocks `0 … k`. -/
def acc (f : Fin 4096 → M) (k : ℕ) : M := ∑ kb ∈ range (k + 1), block f kb

theorem acc_zero (f : Fin 4096 → M) : acc f 0 = block f 0 := by
  unfold acc; rw [Finset.sum_range_one]

theorem acc_succ (f : Fin 4096 → M) (k : ℕ) : acc f (k + 1) = acc f k + block f (k + 1) := by
  unfold acc; rw [Finset.sum_range_succ]

/-- A block's sum over the naturals below 1024, for a function of the natural position. -/
private theorem block_nat (g : ℕ → M) (kb : ℕ) :
    ∑ x ∈ range 1024, g (kb * 1024 + x) = ∑ j : Fin 1024, g (kb * 1024 + j.val) :=
  (Fin.sum_univ_eq_sum_range (fun x => g (kb * 1024 + x)) 1024).symm

/-- After the last step the accumulator is the whole sum. -/
theorem acc_three (f : Fin 4096 → M) : acc f 3 = ∑ k : Fin 4096, f k := by
  let g : ℕ → M := fun k => f ⟨k % 4096, Nat.mod_lt _ (by norm_num)⟩
  have hf : ∀ k : Fin 4096, f k = g k.val := fun k => by
    show f k = f ⟨k.val % 4096, _⟩
    congr 1; apply Fin.ext; exact (Nat.mod_eq_of_lt k.isLt).symm
  have hb : ∀ kb : ℕ, block f kb = ∑ x ∈ range 1024, g (kb * 1024 + x) := fun kb => by
    rw [block_nat]; rfl
  have hs : ∑ k : Fin 4096, f k = ∑ k ∈ range 4096, g k := by
    rw [← Fin.sum_univ_eq_sum_range]; exact Finset.sum_congr rfl fun k _ => hf k
  rw [hs, show (4096 : ℕ) = 1024 + 1024 + 1024 + 1024 from rfl, Finset.sum_range_add, Finset.sum_range_add,
    Finset.sum_range_add]
  unfold acc
  rw [Finset.sum_range_succ, Finset.sum_range_succ, Finset.sum_range_succ, Finset.sum_range_one, hb, hb, hb, hb]
  simp only [Nat.zero_mul, Nat.zero_add, Nat.one_mul]

end Cert.BlockSum
-- ==== Proof.Invariant.lean ====
/-
  The accumulator after each grid point is a partial sum of the contraction, and the output block is the whole sum plus the
  bias.

  Fix an output entry: row r of the flattened activations, column v. Its contraction has 4096 terms
  `X(r, j) · W(j, v)`. The grid point with contraction block k that covers the entry adds block k of those terms (positions
  `k · 1024 … k · 1024 + 1023`) to the accumulator, starting from zero at k = 0: after it the accumulator's entry is the sum
  of blocks 0 … k. At k = 3 that is the whole sum, and the output block's entry is that plus the bias at v.
-/
import proofs.«166825_j80917183856748_1_alg».proof.Proof.Steps
import proofs.«166825_j80917183856748_1_alg».proof.Proof.Payload
import proofs.«166825_j80917183856748_1_alg».proof.Proof.Blocks
import proofs.«166825_j80917183856748_1_alg».proof.Proof.BlockSum

noncomputable section

open Idealize.ShloMosaic Idealize.ShloMosaic.TcCoe Idealize.SL.Sem

namespace Cert.KernelIdeal.Invariant
open Cert.KernelIdeal Cert.KernelIdeal.Gen Idealize.ShloMosaic.ValueIdx Cert.BlockSum
variable (m : (ℓ : Loc nD τ sig) → Buf (Elt Ideal) ℓ)

/-- The flattened activations, the weight matrix and the bias row as the kernel finds them, as arrays of extended reals. -/
def lhsArr (c : Dev nD) : S8192x4096.Idx → EReal := V m c main_v5
def rhsArr (c : Dev nD) : S4096x16384.Idx → EReal := V m c main_v6
def biasArr (c : Dev nD) : S1x16384.Idx → EReal := V m c main_v7

/-- Term j of the contraction for output entry (r, v). -/
def term (c : Dev nD) (r : Fin 8192) (v : Fin 16384) : Fin 4096 → EReal := fun j =>
  lhsArr m c (ix2 r j) * rhsArr m c (ix2 j v)

/-- The product of a point's two operand blocks at (p, q) is that point's block of the contraction. -/
theorem block_sum (c : Dev nD) (t : Fin cfg0.N) (p : Fin 512) (q : Fin 2048) (r : Fin 8192) (v : Fin 16384)
    (hr : r.val = t.val / 32 * 512 + p.val) (hv : v.val = t.val / 4 % 8 * 2048 + q.val)
    (x0 : Vec Ideal S512x1024 .bf16) (x1 : Vec Ideal S1024x2048 .bf16) (h0 : x0 = iblk m c 0 t) (h1 : x1 = iblk m c 1 t) :
    ∑ k : Fin 1024, x0 (ix2 p k) * x1 (ix2 k q) = block (term m c r v) (t.val % 4) := by
  subst h0 h1
  unfold block
  refine Finset.sum_congr rfl fun k _ => ?_
  have hk := pos_val (t.val % 4) (Nat.mod_lt _ (by norm_num)) k
  exact congrArg₂ (· * ·) (Blocks.lhs_block m c t p k r (pos (t.val % 4) k) hr hk)
    (Blocks.rhs_block m c t k q (pos (t.val % 4) k) v hk hv)

/-- At the first point of a sweep the accumulator's entry is block 0. -/
theorem first_val (c : Dev nD) (t : Fin cfg0.N) (h0 : t.val % 4 = 0) (p : Fin 512) (q : Fin 2048) (r : Fin 8192) (v : Fin 16384)
    (hr : r.val = t.val / 32 * 512 + p.val) (hv : v.val = t.val / 4 % 8 * 2048 + q.val) :
    (outsAt0 m c t.val t.isLt).2 (ix2 p q) = acc (term m c r v) (t.val % 4) := by
  rw [Steps.acc_first m c t h0]
  refine (Payload.step_apply (k0_pay1 (F := Ideal)) (iblk m c 0 t) (iblk m c 1 t) p q).trans ?_
  rw [Payload.zero_apply, zero_add, block_sum m c t p q r v hr hv (iblk m c 0 t) (iblk m c 1 t) rfl rfl, h0, acc_zero]

/-- At a later point it is what the point before left plus this point's block. -/
theorem next_val (c : Dev nD) (t : Fin cfg0.N) (h0 : ¬t.val % 4 = 0) (p : Fin 512) (q : Fin 2048) (r : Fin 8192) (v : Fin 16384)
    (hr : r.val = t.val / 32 * 512 + p.val) (hv : v.val = t.val / 4 % 8 * 2048 + q.val)
    (ih : Steps.prevAcc m c t (ix2 p q) = acc (term m c r v) ((t.val - 1) % 4)) :
    (outsAt0 m c t.val t.isLt).2 (ix2 p q) = acc (term m c r v) (t.val % 4) := by
  rw [Steps.acc_next m c t h0]
  refine (Payload.step_apply (Steps.prevAcc m c t) (iblk m c 0 t) (iblk m c 1 t) p q).trans ?_
  rw [ih, block_sum m c t p q r v hr hv (iblk m c 0 t) (iblk m c 1 t) rfl rfl]
  have hk : t.val % 4 = (t.val - 1) % 4 + 1 := by omega
  rw [hk, acc_succ]

/-- THE INVARIANT, by induction on the point. -/
theorem acc_eq (c : Dev nD) : ∀ (n : ℕ) (hn : n < cfg0.N) (p : Fin 512) (q : Fin 2048) (r : Fin 8192) (v : Fin 16384),
    r.val = n / 32 * 512 + p.val → v.val = n / 4 % 8 * 2048 + q.val →
    (outsAt0 m c n hn).2 (ix2 p q) = acc (term m c r v) (n % 4) := by
  intro n
  induction n with
  | zero => intro hn p q r v hr hv; exact first_val m c ⟨0, hn⟩ rfl p q r v hr hv
  | succ n ih =>
    intro hn p q r v hr hv
    by_cases h0 : (n + 1) % 4 = 0
    · exact first_val m c ⟨n + 1, hn⟩ h0 p q r v hr hv
    · refine next_val m c ⟨n + 1, hn⟩ h0 p q r v hr hv ?_
      have e1 : (n + 1) / 32 = n / 32 := by omega
      have e2 : (n + 1) / 4 % 8 = n / 4 % 8 := by omega
      exact ih (Nat.lt_of_succ_lt hn) p q r v (by rw [hr, e1]) (by rw [hv, e2])

/-- At the last point of a sweep the output block's entry is the whole contraction plus the bias row's entry. -/
theorem out_val (c : Dev nD) (t : Fin cfg0.N) (h1 : t.val % 4 = 3) (y : S512x2048.Idx) (r : Fin 8192) (v : Fin 16384)
    (hr : r.val = t.val / 32 * 512 + (y 0).val) (hv : v.val = t.val / 4 % 8 * 2048 + (y 1).val) :
    (outsAt0 m c t.val t.isLt).1 y
      = (∑ j : Fin 4096, term m c r v j) + biasArr m c (ix2 (0 : Fin 1) v) := by
  obtain ⟨p, q, rfl⟩ : ∃ (p : Fin 512) (q : Fin 2048), y = ix2 p q := ⟨y 0, y 1, eq_ix2 y⟩
  rw [Steps.out_last m c t h1]
  refine (Payload.out_apply (outsAt0 m c t.val t.isLt).2 (iblk m c 2 t) p q).trans ?_
  rw [acc_eq m c t.val t.isLt p q r v hr hv, h1, acc_three, Blocks.bias_block m c t q v hv]
  rfl

end Cert.KernelIdeal.Invariant
end
-- ==== Proof.LibAfterSsa.lean ====
/-
  GENERAL LEMMAS (reusable): reading a straight line of host operations in which every buffer is written at most once.

  `StableHlo.after ops V` is the fold of the operations' effects over the contents `V`. Unfolding it to a closed term
  copies a shared intermediate once per use, and for a line of hundreds of operations with sharing the term is
  astronomically large. The lemmas below read the fold WITHOUT unfolding it: the value a buffer holds after the whole
  line is what its writer computed from the contents BEFORE the writer (`after_at_writer`), provided no later operation
  writes that buffer; and a buffer that nothing from position `k` on writes holds, before position `k`, what it holds after
  the whole line (`after_take_eq`). Together: with `A b := after ops V b`, each operation `y := f x₁ x₂ …` of a
  single-assignment line gives the equation `A y = f (A x₁) (A x₂) …`, and a result is read by chaining these equations
  in program order, every term staying as small as the program text.

  That "nothing from position `k` on writes `b`" is decided on the LIST OF WRITE SETS of the line, which mentions neither
  the float instance nor any operation's function (`not_written_of_map`), so `decide` applies to it.
-/
import Idealize.ShloMosaic.Lib.StableHlo.Run

namespace Cert.Lib.AfterSsa

open Idealize.ShloMosaic Idealize.ShloMosaic.StableHlo

variable {τ : Topo} {sig : RefSig} {Val : EltTy → Type}

/-- The fold over a concatenation is the fold over the second part from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- After the whole line a buffer holds what operation `op` made of the contents before it, if nothing after `op` writes it. -/
theorem after_at_writer (pre post : List (HloOp τ sig Val)) (op : HloOp τ sig Val) (V : Valuation τ sig Val) (b : DevRef τ sig)
    (hpost : ∀ o ∈ post, b ∉ o.writes) :
    after (pre ++ op :: post) V b = op.result (after pre V) b := by
  rw [after_append, after_cons, after_of_forall_not_mem post _ hpost]

/-- A buffer that nothing in `rest` writes holds after `pre ++ rest` what it holds after `pre`. -/
theorem after_prefix (pre rest : List (HloOp τ sig Val)) (V : Valuation τ sig Val) (b : DevRef τ sig)
    (h : ∀ o ∈ rest, b ∉ o.writes) : after (pre ++ rest) V b = after pre V b := by
  rw [after_append, after_of_forall_not_mem rest _ h]

/-- The same with the line cut at position `k`. -/
theorem after_take_eq (ops : List (HloOp τ sig Val)) (k : ℕ) (V : Valuation τ sig Val) (b : DevRef τ sig)
    (h : ∀ o ∈ ops.drop k, b ∉ o.writes) : after (ops.take k) V b = after ops V b := by
  conv_rhs => rw [← List.take_append_drop k ops]
  exact (after_prefix _ _ V b h).symm

/-- "Nothing from position `k` on writes `b`", from the same fact about the line's list of write sets. -/
theorem not_written_of_map {ops : List (HloOp τ sig Val)} {ws : List (Finset (DevRef τ sig))} (h : ops.map (fun o => o.writes) = ws)
    (k : ℕ) (b : DevRef τ sig) (hb : ∀ w ∈ ws.drop k, b ∉ w) : ∀ o ∈ ops.drop k, b ∉ o.writes := by
  intro o ho
  refine hb o.writes ?_
  rw [← h, ← List.map_drop]
  exact List.mem_map_of_mem ho

end Cert.Lib.AfterSsa
-- ==== Proof.HostPrefix.lean ====
/-
  The arrays the kernel's windows stage, as functions of the program's arguments.

  Before the kernel runs, the host gathers the weights from the codebooks (23 operations), lays them out as a
  4096 x 16384 matrix (a transpose of the last two axes, then a reshape), flattens the activations to 8192 x 4096, narrows
  both to the 16-bit format, and views the bias as one row. The gathered weights are kept as ONE term `gathered codes books`:
  the operations after the gather are read over whatever the gather left.
-/
import proofs.«166825_j80917183856748_1_alg».proof.Proof.Gen.KernelIdeal.Frame
import proofs.«166825_j80917183856748_1_alg».proof.Proof.LibAfterSsa
import Idealize.ShloMosaic.Lib.StableHlo.Run

noncomputable section

open Idealize.ShloMosaic Idealize.ShloMosaic.TcCoe Idealize.SL.Sem

namespace Cert.KernelIdeal.HostPrefix
open Cert.KernelIdeal Cert.KernelIdeal.Gen Idealize.ShloMosaic.StableHlo
variable {F : FTy → Type} [FloatOps F]
variable (m : (ℓ : Loc nD τ sig) → Buf (Elt F) ℓ)

/-- The gathered weights: entry (h, v, d) is `books (h, codes (h, v), d)`, a negative code first shifted up by 256, and
    an entry whose shifted code is still outside `0 … 255` replaced by the fill value. -/
def gathered (codes : (⟨S32x16384, .i32⟩ : BufTy).Contents (Elt F)) (books : (⟨S32x256x128, .f32⟩ : BufTy).Contents (Elt F)) :
    (⟨S32x16384x128, .f32⟩ : BufTy).Contents (Elt F) :=
  select (broadcastInDim S32x16384x128 ![0, 1] bcast_S32x16384_S32x16384x128_0_1 (Host.reduce IntOp.andi (andi (cmpi .sge (select (cmpi .slt (broadcastInDim S32x16384x1 ![0, 1] bcast_S32x16384_S32x16384x1_0_1 codes) (broadcastInDim S32x16384x1 ![] bcast_S_S32x16384x1 (constantI S_ 32 0#32))) (addi (broadcastInDim S32x16384x1 ![0, 1] bcast_S32x16384_S32x16384x1_0_1 codes) (broadcastInDim S32x16384x1 ![] bcast_S_S32x16384x1 (constantI S_ 32 256#32))) (broadcastInDim S32x16384x1 ![0, 1] bcast_S32x16384_S32x16384x1_0_1 codes)) (broadcastInDim S32x16384x1 ![] bcast_S_S32x16384x1 (constantI S_ 32 0#32))) (cmpi .sle (select (cmpi .slt (broadcastInDim S32x16384x1 ![0, 1] bcast_S32x16384_S32x16384x1_0_1 codes) (broadcastInDim S32x16384x1 ![] bcast_S_S32x16384x1 (constantI S_ 32 0#32))) (addi (broadcastInDim S32x16384x1 ![0, 1] bcast_S32x16384_S32x16384x1_0_1 codes) (broadcastInDim S32x16384x1 ![] bcast_S_S32x16384x1 (constantI S_ 32 256#32))) (broadcastInDim S32x16384x1 ![0, 1] bcast_S32x16384_S32x16384x1_0_1 codes)) (broadcastInDim S32x16384x1 ![0, 1, 2] bcast_S1x1x1_S32x16384x1_0_1_2 (broadcastInDim S1x1x1 ![2] bcast_S1_S1x1x1_2 (constantI S1 32 255#32))))) (constantI S_ 1 1#1) reducesTo_S32x16384x1_S32x16384_d2 h_S_)) (Host.gather gather_S32x256x128_S32x16384x1_S32x16384x128_2_1_0_0_1_2_11128 books (select (cmpi .slt (broadcastInDim S32x16384x1 ![0, 1] bcast_S32x16384_S32x16384x1_0_1 codes) (broadcastInDim S32x16384x1 ![] bcast_S_S32x16384x1 (constantI S_ 32 0#32))) (addi (broadcastInDim S32x16384x1 ![0, 1] bcast_S32x16384_S32x16384x1_0_1 codes) (broadcastInDim S32x16384x1 ![] bcast_S_S32x16384x1 (constantI S_ 32 256#32))) (broadcastInDim S32x16384x1 ![0, 1] bcast_S32x16384_S32x16384x1_0_1 codes))) (broadcastInDim S32x16384x128 ![] bcast_S_S32x16384x128 (constant S_ .f32 0x7FC00000#32))

/-- What the buffers hold once the gather is done (the first 23 host operations). -/
def pre (c : Dev nD) : Valuation τ sig (Elt F) := after (hostOps0 ++ hostOps0_1) (fun b => m (c, b))

theorem ops_split : (List.flatten [hostOps0, hostOps0_1, hostOps0_2] : List (HloOp τ sig (Elt F))) = (hostOps0 ++ hostOps0_1) ++ hostOps0_2 := by
  simp only [List.flatten_cons, List.flatten_nil, List.append_nil, List.append_assoc]

/-- The region finds each buffer as the six operations after the gather leave it. -/
theorem V_split (c : Dev nD) (b : Ref sig .tc) : V m c b = after hostOps0_2 (pre m c) (Proc.devRef .tc b) := by
  show after (List.flatten [hostOps0, hostOps0_1, hostOps0_2]) (fun b => m (c, b)) (Proc.devRef .tc b) = _
  rw [ops_split, Cert.Lib.AfterSsa.after_append]
  rfl

set_option maxRecDepth 100000 in
set_option maxHeartbeats 4000000 in
/-- The gather leaves the gathered weights in its result buffer. -/
theorem pre_weights (c : Dev nD) :
    pre m c (Proc.devRef .tc main_v1) = gathered (m ((c : Thread nD τ).loc main_arg1)) (m ((c : Thread nD τ).loc main_arg2)) := by
  unfold pre
  simp only [hostOps0, hostOps0_1, List.cons_append, List.nil_append]
  after_results_simp
  simp only [cast_eq]
  rfl

set_option maxRecDepth 100000 in
/-- The gather does not touch the activations. -/
theorem pre_arg0 (c : Dev nD) : pre m c (Proc.devRef .tc main_arg0) = m ((c : Thread nD τ).loc main_arg0) := by
  unfold pre
  simp only [hostOps0, hostOps0_1, List.cons_append, List.nil_append]
  after_results_simp <;> rfl

set_option maxRecDepth 100000 in
/-- The gather does not touch the bias. -/
theorem pre_arg3 (c : Dev nD) : pre m c (Proc.devRef .tc main_arg3) = m ((c : Thread nD τ).loc main_arg3) := by
  unfold pre
  simp only [hostOps0, hostOps0_1, List.cons_append, List.nil_append]
  after_results_simp <;> rfl

/-- The left operand: the activations flattened to 8192 x 4096 and narrowed. -/
theorem lhs_array (c : Dev nD) :
    (V m c main_v5 : FVec F S8192x4096 .bf16)
      = truncf .bf16 (shapeCast S8192x4096 (m ((c : Thread nD τ).loc main_arg0) : FVec F S4x2048x4096 .f32) shapeCasts_S4x2048x4096_S8192x4096) bitsLt_bf16_f32 := by
  rw [V_split]
  have e := pre_arg0 m c
  generalize pre m c = W at e ⊢
  simp only [hostOps0_2]
  after_results
  rw [e]
  rfl

/-- The right operand: the gathered weights with their last two axes exchanged, flattened to 4096 x 16384 and narrowed. -/
theorem rhs_array (c : Dev nD) :
    (V m c main_v6 : FVec F S4096x16384 .bf16)
      = truncf .bf16 (shapeCast S4096x16384 (transpose S32x128x16384 [0, 2, 1]
          (gathered (m ((c : Thread nD τ).loc main_arg1)) (m ((c : Thread nD τ).loc main_arg2))) transposes_S32x16384x128_S32x128x16384_0_2_1)
          shapeCasts_S32x128x16384_S4096x16384) bitsLt_bf16_f32 := by
  rw [V_split]
  have e := pre_weights m c
  generalize pre m c = W at e ⊢
  simp only [hostOps0_2]
  after_results
  rw [e]
  rfl

/-- The bias as one row. -/
theorem bias_array (c : Dev nD) :
    (V m c main_v7 : FVec F S1x16384 .f32)
      = shapeCast S1x16384 (m ((c : Thread nD τ).loc main_arg3) : FVec F S16384 .f32) shapeCasts_S16384_S1x16384 := by
  rw [V_split]
  have e := pre_arg3 m c
  generalize pre m c = W at e ⊢
  simp only [hostOps0_2]
  after_results
  rw [e]
  rfl

end Cert.KernelIdeal.HostPrefix
end
-- ==== Proof.Entries.lean ====
/-
  The staged arrays at an entry, in terms of the arguments and the gathered weights.

  Narrowing to the 16-bit format changes nothing over the extended reals. Row `b · 2048 + s` of the flattened activations is
  row (b, s) of the activations. Row `h · 128 + d` of the weight matrix is (h, d) of the gathered weights with their last two
  axes exchanged, so its entry at column v is the gathered weights' entry (h, v, d). The bias row's entry at column v is the
  bias at v.
-/
import proofs.«166825_j80917183856748_1_alg».proof.Proof.HostPrefix
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem

namespace Cert.KernelIdeal.Entries
open Cert.KernelIdeal Cert.KernelIdeal.Gen Idealize.ShloMosaic.ValueIdx
variable (m : (ℓ : Loc nD τ sig) → Buf (Elt Ideal) ℓ)

theorem lhs_entry (c : Dev nD) (r : Fin 8192) (j : Fin 4096) (b : Fin 4) (s : Fin 2048) (hr : r.val = b.val * 2048 + s.val) :
    (V m c main_v5 : FVec Ideal S8192x4096 .bf16) (ix2 r j)
      = (m ((c : Thread nD τ).loc main_arg0) : FVec Ideal S4x2048x4096 .f32) (ix3 b s j) := by
  rw [HostPrefix.lhs_array]
  refine (truncf_apply (ψ := .bf16) _ bitsLt_bf16_f32 (ix2 r j)).trans ?_
  refine shapeCast_apply _ _ (ix2 r j) (ix3 b s j) ?_
  rw [Shape.rowMajor_val_three, Shape.rowMajor_val_two]
  show (b.val * 2048 + s.val) * 4096 + j.val = r.val * 4096 + j.val
  rw [hr]

theorem rhs_entry (c : Dev nD) (j : Fin 4096) (v : Fin 16384) (h : Fin 32) (d : Fin 128) (hj : j.val = h.val * 128 + d.val) :
    (V m c main_v6 : FVec Ideal S4096x16384 .bf16) (ix2 j v)
      = HostPrefix.gathered (m ((c : Thread nD τ).loc main_arg1)) (m ((c : Thread nD τ).loc main_arg2)) (ix3 h v d) := by
  rw [HostPrefix.rhs_array]
  refine (truncf_apply (ψ := .bf16) _ bitsLt_bf16_f32 (ix2 j v)).trans ?_
  refine (shapeCast_apply _ _ (ix2 j v) (ix3 h d v) ?_).trans (transpose_ix3_021_apply _ _ h d v)
  rw [Shape.rowMajor_val_three, Shape.rowMajor_val_two]
  show (h.val * 128 + d.val) * 16384 + v.val = j.val * 16384 + v.val
  rw [hj]

theorem bias_entry (c : Dev nD) (v : Fin 16384) :
    (V m c main_v7 : FVec Ideal S1x16384 .f32) (ix2 (0 : Fin 1) v)
      = (m ((c : Thread nD τ).loc main_arg3) : FVec Ideal S16384 .f32) (ix1 v) := by
  rw [HostPrefix.bias_array]
  exact shapeCast_a_1a_apply _ _ 0 v

end Cert.KernelIdeal.Entries
end
-- ==== Proof.Spec.lean ====
/-
  The result both programs compute, as one function of the arguments.

  With the weights gathered from the codebooks, `w (h, v, d)`, the dense weight matrix has entry `W (v, h · 128 + d) = w (h, v, d)`,
  and the result is `y (b, s, v) = ∑ over j < 4096 of x (b, s, j) · w (j / 128, v, j % 128) + bias (v)` on the extended reals.
-/
import Idealize.ShloMosaic.Lib.ValueIdx

noncomputable section

namespace Cert.Spec

open Idealize.ShloMosaic Idealize.ShloMosaic.ValueIdx

/-- Which codebook position `j` of the contraction belongs to. -/
def book (j : Fin 4096) : Fin 32 := ⟨j.val / 128, by have := j.isLt; omega⟩
/-- Its place inside the codebook vector. -/
def place (j : Fin 4096) : Fin 128 := ⟨j.val % 128, Nat.mod_lt _ (by norm_num)⟩

theorem book_place (j : Fin 4096) : j.val = (book j).val * 128 + (place j).val := by
  show j.val = j.val / 128 * 128 + j.val % 128
  omega

/-- The linear layer with the weights given by codebook, column and place. -/
def linear (x : (⟨3, ![4, 2048, 4096]⟩ : Shape).Idx → EReal) (w : (⟨3, ![32, 16384, 128]⟩ : Shape).Idx → EReal)
    (bias : (⟨1, ![16384]⟩ : Shape).Idx → EReal) : (⟨3, ![4, 2048, 16384]⟩ : Shape).Idx → EReal :=
  fun i => (∑ j : Fin 4096, x (ix3 (⟨(i 0).val, (i 0).isLt⟩ : Fin 4) (⟨(i 1).val, (i 1).isLt⟩ : Fin 2048) j)
      * w (ix3 (book j) (⟨(i 2).val, (i 2).isLt⟩ : Fin 16384) (place j)))
    + bias (ix1 (⟨(i 2).val, (i 2).isLt⟩ : Fin 16384))

theorem linear_apply (x : (⟨3, ![4, 2048, 4096]⟩ : Shape).Idx → EReal) (w : (⟨3, ![32, 16384, 128]⟩ : Shape).Idx → EReal)
    (bias : (⟨1, ![16384]⟩ : Shape).Idx → EReal) (b : Fin 4) (s : Fin 2048) (v : Fin 16384) :
    linear x w bias (ix3 b s v) = (∑ j : Fin 4096, x (ix3 b s j) * w (ix3 (book j) v (place j))) + bias (ix1 v) := rfl

end Cert.Spec

end
-- ==== Proof.Final.lean ====
/-
  The kernel's result array, and the kernel's run read back.

  The output's 512 x 2048 blocks tile the 8192 x 16384 product array, and the block at (row block, column block) is written
  back once, by the last point of that block's contraction sweep, holding for each of its entries the whole contraction plus
  the bias. So after the run the product array's entry (r, v) is `∑ j, X (r, j) · W (j, v) + bias (v)`. The host then views
  the array as 4 x 2048 x 16384: entry (b, s, v) is row `b · 2048 + s`. With the staged arrays read back to the arguments this
  is the linear layer of the specification.
-/
import proofs.«166825_j80917183856748_1_alg».proof.Proof.Invariant
import proofs.«166825_j80917183856748_1_alg».proof.Proof.Entries
import proofs.«166825_j80917183856748_1_alg».proof.Proof.Spec
import Idealize.ShloMosaic.Lib.StableHlo.Run

noncomputable section

open Idealize.ShloMosaic Idealize.ShloMosaic.TcCoe Idealize.SL.Sem
open Idealize.ShloMosaic.Pipeline (Dat)

namespace Cert.KernelIdeal.Final
open Cert.KernelIdeal Cert.KernelIdeal.Gen Idealize.ShloMosaic.ValueIdx Idealize.ShloMosaic.StableHlo
variable (m : (ℓ : Loc nD τ sig) → Buf (Elt Ideal) ℓ) (ρ : Dev nD → PrngReg)

/-- Entry (r, v) of the product array: the whole contraction plus the bias. -/
def entry (c : Dev nD) (r : Fin 8192) (v : Fin 16384) : EReal :=
  (∑ j : Fin 4096, Invariant.term m c r v j) + Invariant.biasArr m c (ix2 (0 : Fin 1) v)

/-- The product array. -/
def product (c : Dev nD) : S8192x16384.Idx → EReal := fun i => entry m c ⟨(i 0).val, (i 0).isLt⟩ ⟨(i 1).val, (i 1).isLt⟩

/-- What a flushing point writes back is its block of the product array. -/
theorem flushed_eq (c : Dev nD) (t : Fin cfg0.N) (hf : (cfg0.win 3).flush t = true) :
    (dats m 0 c).flushed 3 t = ((cfg0.win 3).blk t).view.read (Elt Ideal) (product m c) := by
  have h1 : t.val % 4 = 3 := (flush0_3 t).mp hf
  have hN : t.val < 512 := lt_of_lt_of_eq t.isLt N_0
  show (cfg0.win 3).cut (grid0.coords t) ((dats m 0 c).after 3 t) = _
  rw [after0_3]
  funext y
  have hy0 : (y 0).val < 512 := (y 0).isLt
  have hy1 : (y 1).val < 2048 := (y 1).isLt
  refine (Invariant.out_val m c t h1 y ⟨t.val / 32 * 512 + (y 0).val, by omega⟩ ⟨t.val / 4 % 8 * 2048 + (y 1).val, by omega⟩ rfl rfl).trans ?_
  show entry m c _ _ = entry m c _ _
  obtain ⟨-, -, -, -, -, -, e0, e1⟩ := Blocks.idx_facts t
  refine congrArg₂ (entry m c) (Fin.ext ?_) (Fin.ext ?_)
  · show t.val / 32 * 512 + (y 0).val = win0_3.index t 0 * 512 + 1 * (y 0).val
    rw [e0]; omega
  · show t.val / 4 % 8 * 2048 + (y 1).val = win0_3.index t 1 * 2048 + 1 * (y 1).val
    rw [e1]; omega

/-- An entry is in a point's block iff each coordinate is in the block's range on its axis. -/
theorem mem_blk (t : Fin cfg0.N) (i : S8192x16384.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v8).slice (win0_3.rect t)).set ↔ _
  rw [View.set_slice_whole, Rect.mem_set_unit]
  exact Iff.rfl

/-- Every entry is in the block of the last point of its sweep. -/
theorem cover (i : S8192x16384.Idx) :
    ∃ t : Fin cfg0.N, (cfg0.win 3).flush t = true ∧ i ∈ ((cfg0.win 3).blk t).view.set := by
  have h0 : (i 0).val < 8192 := (i 0).isLt
  have h1 : (i 1).val < 16384 := (i 1).isLt
  have hN : cfg0.N = 512 := N_0
  have hn : ((i 0).val / 512 * 8 + (i 1).val / 2048) * 4 + 3 < cfg0.N := by rw [hN]; omega
  refine ⟨⟨((i 0).val / 512 * 8 + (i 1).val / 2048) * 4 + 3, hn⟩, (flush0_3 _).mpr (by show (((i 0).val / 512 * 8 + (i 1).val / 2048) * 4 + 3) % 4 = 3; omega), ?_⟩
  rw [mem_blk]
  obtain ⟨-, -, -, -, -, -, e0, e1⟩ := Blocks.idx_facts ⟨((i 0).val / 512 * 8 + (i 1).val / 2048) * 4 + 3, hn⟩
  have e0' : win0_3.index ⟨((i 0).val / 512 * 8 + (i 1).val / 2048) * 4 + 3, hn⟩ 0 = (((i 0).val / 512 * 8 + (i 1).val / 2048) * 4 + 3) / 32 := e0
  have e1' : win0_3.index ⟨((i 0).val / 512 * 8 + (i 1).val / 2048) * 4 + 3, hn⟩ 1 = (((i 0).val / 512 * 8 + (i 1).val / 2048) * 4 + 3) / 4 % 8 := e1
  intro a
  match a with
  | ⟨0, _⟩ =>
    show win0_3.index _ 0 * 512 ≤ (i 0).val ∧ (i 0).val < win0_3.index _ 0 * 512 + 512
    rw [e0']; omega
  | ⟨1, _⟩ =>
    show win0_3.index _ 1 * 2048 ≤ (i 1).val ∧ (i 1).val < win0_3.index _ 1 * 2048 + 2048
    rw [e1']; omega

/-- The product array after the run. -/
theorem final (c : Dev nD) : (dats m 0 c).arrAt 3 cfg0.N = product m c :=
  (dats m 0 c).arrAt_eq_of_cover 3 (product m c) (fun t hf => flushed_eq m c t hf) (cover)

end Cert.KernelIdeal.Final
end
-- ==== Proof.KernelRun.lean ====
/-
  The kernel's run: its result is the linear layer of the specification.

  An entry (r, v) of the product array is the whole contraction of row r of the flattened activations with column v of the
  weight matrix, plus the bias at v; read back to the arguments, row `b · 2048 + s` is (b, s) of the activations and position j
  of column v is the gathered weights at (codebook of j, v, place of j). The host's last operation views the product array as
  4 x 2048 x 16384.
-/
import proofs.«166825_j80917183856748_1_alg».proof.Proof.Final
import Idealize.ShloMosaic.Lib.StableHlo.Run

noncomputable section

open Idealize.ShloMosaic Idealize.ShloMosaic.TcCoe Idealize.SL.Sem
open Idealize.ShloMosaic.Pipeline (Dat)

namespace Cert.KernelIdeal.KernelRun
open Cert.KernelIdeal Cert.KernelIdeal.Gen Idealize.ShloMosaic.ValueIdx Idealize.ShloMosaic.StableHlo
variable (m : (ℓ : Loc nD τ sig) → Buf (Elt Ideal) ℓ) (ρ : Dev nD → PrngReg)

/-- An entry of the product array, in terms of the arguments. -/
theorem entry_eq (c : Dev nD) (b : Fin 4) (s : Fin 2048) (v : Fin 16384) (r : Fin 8192) (hr : r.val = b.val * 2048 + s.val) :
    Final.entry m c r v = Spec.linear (m ((c : Thread nD τ).loc main_arg0)) (HostPrefix.gathered (m ((c : Thread nD τ).loc main_arg1)) (m ((c : Thread nD τ).loc main_arg2))) (m ((c : Thread nD τ).loc main_arg3)) (ix3 b s v) := by
  rw [Spec.linear_apply]
  unfold Final.entry
  refine congrArg₂ (· + ·) (Finset.sum_congr rfl fun j _ => ?_) ?_
  · unfold Invariant.term Invariant.lhsArr Invariant.rhsArr
    exact congrArg₂ (· * ·) (Entries.lhs_entry m c r j b s hr)
      (Entries.rhs_entry m c j v (Spec.book j) (Spec.place j) (Spec.book_place j))
  · unfold Invariant.biasArr
    exact Entries.bias_entry m c v

/-- The product array viewed as 4 x 2048 x 16384 is the specification's result. -/
theorem result_eq (c : Dev nD) :
    shapeCast S4x2048x16384 (Final.product m c) shapeCasts_S8192x16384_S4x2048x16384 = Spec.linear (m ((c : Thread nD τ).loc main_arg0)) (HostPrefix.gathered (m ((c : Thread nD τ).loc main_arg1)) (m ((c : Thread nD τ).loc main_arg2))) (m ((c : Thread nD τ).loc main_arg3)) := by
  funext i
  obtain ⟨b, s, v, rfl⟩ : ∃ (b : Fin 4) (s : Fin 2048) (v : Fin 16384), i = ix3 b s v := ⟨i 0, i 1, i 2, eq_ix3 i⟩
  have hb := b.isLt
  have hs := s.isLt
  refine (shapeCast_apply _ _ (ix3 b s v) (ix2 (⟨b.val * 2048 + s.val, by omega⟩ : Fin 8192) v) ?_).trans ?_
  · rw [Shape.rowMajor_val_two, Shape.rowMajor_val_three]
    rfl
  · exact entry_eq m c b s v ⟨b.val * 2048 + s.val, by omega⟩ rfl

/-- What the host's last operation leaves in the result buffer. -/
theorem out_array (c : Dev nD) :
    Pipeline.afterTail₀ cfgs (dats m) 0 (V0 m) [hostOps1] c main_v9
      = shapeCast S4x2048x16384 (Final.product m c) shapeCasts_S8192x16384_S4x2048x16384 := by
  unfold Pipeline.afterTail₀
  show StableHlo.after hostOps1 _ (Proc.devRef .tc main_v9) = _
  after_results
  have hw := (Pipeline.withArrays_arr spec0 launch0.win.arr_inj c (V0 m c) (fun w => (dats m 0 c).arrAt w cfg0.N) 3).trans (Final.final m c)
  rw [hw]
  rfl

/-- From any memory with zero counters: every weakly fair execution of the idealized kernel terminates with its result at
    the specification's linear layer of the arguments, and the arguments unchanged. -/
theorem run : θ_run defs (onTc (τ := τ) (main (F := Ideal))) ⟨m, fun _ => 0, ρ⟩ fun r => ∀ c : Dev nD,
      r.2.mem ((c : Thread nD τ).loc main_v9) = Spec.linear (m ((c : Thread nD τ).loc main_arg0)) (HostPrefix.gathered (m ((c : Thread nD τ).loc main_arg1)) (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v9 (Pipeline.mem_restRefs_of main_v9 (by decide) (by decide))).trans ((out_array m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun
end
-- ==== Proof.RefRun.lean ====
/-
  The reference program's run: what its result buffer holds, as one term of the arguments.

  The reference is a straight line of host operations: the same gather of the weights from the codebooks as the kernel's
  host side makes (23 operations), then the weights laid out as a 16384 x 4096 matrix (the first two axes exchanged, then a
  reshape), the contraction of the activations' last axis with the weights' last axis, and the bias added along the last
  axis. The gathered weights are kept as ONE term `gathered codes books`: the six operations after the gather are read
  over whatever the gather left.
-/
import proofs.«166825_j80917183856748_1_alg».proof.Proof.Gen.ReferenceIdeal
import proofs.«166825_j80917183856748_1_alg».proof.Proof.LibAfterSsa
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The gathered weights: entry (h, v, d) is `books (h, codes (h, v), d)`, a negative code first shifted up by 256, and
    an entry whose shifted code is still outside `0 … 255` replaced by the fill value. -/
def gathered (codes : (⟨S32x16384, .i32⟩ : BufTy).Contents (Elt F)) (books : (⟨S32x256x128, .f32⟩ : BufTy).Contents (Elt F)) :
    (⟨S32x16384x128, .f32⟩ : BufTy).Contents (Elt F) :=
  select (broadcastInDim S32x16384x128 ![0, 1] bcast_S32x16384_S32x16384x128_0_1 (Host.reduce IntOp.andi (andi (cmpi .sge (select (cmpi .slt (broadcastInDim S32x16384x1 ![0, 1] bcast_S32x16384_S32x16384x1_0_1 codes) (broadcastInDim S32x16384x1 ![] bcast_S_S32x16384x1 (constantI S_ 32 0#32))) (addi (broadcastInDim S32x16384x1 ![0, 1] bcast_S32x16384_S32x16384x1_0_1 codes) (broadcastInDim S32x16384x1 ![] bcast_S_S32x16384x1 (constantI S_ 32 256#32))) (broadcastInDim S32x16384x1 ![0, 1] bcast_S32x16384_S32x16384x1_0_1 codes)) (broadcastInDim S32x16384x1 ![] bcast_S_S32x16384x1 (constantI S_ 32 0#32))) (cmpi .sle (select (cmpi .slt (broadcastInDim S32x16384x1 ![0, 1] bcast_S32x16384_S32x16384x1_0_1 codes) (broadcastInDim S32x16384x1 ![] bcast_S_S32x16384x1 (constantI S_ 32 0#32))) (addi (broadcastInDim S32x16384x1 ![0, 1] bcast_S32x16384_S32x16384x1_0_1 codes) (broadcastInDim S32x16384x1 ![] bcast_S_S32x16384x1 (constantI S_ 32 256#32))) (broadcastInDim S32x16384x1 ![0, 1] bcast_S32x16384_S32x16384x1_0_1 codes)) (broadcastInDim S32x16384x1 ![0, 1, 2] bcast_S1x1x1_S32x16384x1_0_1_2 (broadcastInDim S1x1x1 ![2] bcast_S1_S1x1x1_2 (constantI S1 32 255#32))))) (constantI S_ 1 1#1) reducesTo_S32x16384x1_S32x16384_d2 h_S_)) (Host.gather gather_S32x256x128_S32x16384x1_S32x16384x128_2_1_0_0_1_2_11128 books (select (cmpi .slt (broadcastInDim S32x16384x1 ![0, 1] bcast_S32x16384_S32x16384x1_0_1 codes) (broadcastInDim S32x16384x1 ![] bcast_S_S32x16384x1 (constantI S_ 32 0#32))) (addi (broadcastInDim S32x16384x1 ![0, 1] bcast_S32x16384_S32x16384x1_0_1 codes) (broadcastInDim S32x16384x1 ![] bcast_S_S32x16384x1 (constantI S_ 32 256#32))) (broadcastInDim S32x16384x1 ![0, 1] bcast_S32x16384_S32x16384x1_0_1 codes))) (broadcastInDim S32x16384x128 ![] bcast_S_S32x16384x128 (constant S_ .f32 0x7FC00000#32))

/-- The result as a term of the four arguments. -/
def result (x : (⟨S4x2048x4096, .f32⟩ : BufTy).Contents (Elt F)) (codes : (⟨S32x16384, .i32⟩ : BufTy).Contents (Elt F))
    (books : (⟨S32x256x128, .f32⟩ : BufTy).Contents (Elt F)) (bias : (⟨S16384, .f32⟩ : BufTy).Contents (Elt F)) :
    (⟨S4x2048x16384, .f32⟩ : BufTy).Contents (Elt F) :=
  addf (Host.dotGeneral dot_S4x2048x4096_S16384x4096_S4x2048x16384_2_1_01_0_n_n none x
      (shapeCast S16384x4096 (transpose S16384x32x128 [1, 0, 2] (gathered codes books) transposes_S32x16384x128_S16384x32x128_1_0_2)
        shapeCasts_S16384x32x128_S16384x4096))
    (broadcastInDim S4x2048x16384 ![0, 1, 2] bcast_S1x1x16384_S4x2048x16384_0_1_2
      (broadcastInDim S1x1x16384 ![2] bcast_S16384_S1x1x16384_2 bias))

/-- The gather's 23 operations, in order (the called function's operations stand in its call's place). -/
abbrev opsGather : List (HloOp τ sig (Elt F)) :=
  [ unary main_arg1 main_v0 (broadcastInDim S32x16384x1 ![0, 1] bcast_S32x16384_S32x16384x1_0_1 : (⟨S32x16384, .i32⟩ : BufTy).Contents (Elt F) → (⟨S32x16384x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S32x16384x1, .i32⟩) main_call0_v0) (broadcastInDim S32x16384x1 ![] bcast_S_S32x16384x1),
    TRef.binary (TRef.of (T := ⟨S32x16384x1, .i32⟩) main_v0) (TRef.of (T := ⟨S32x16384x1, .i32⟩) main_call0_v0) (TRef.of (T := ⟨S32x16384x1, .i1⟩) main_call0_v1) (cmpi .slt),
    TRef.nullary (TRef.of (T := ⟨S_, .i32⟩) main_call0_c_0) (constantI S_ 32 256#32),
    TRef.unary (TRef.of (T := ⟨S_, .i32⟩) main_call0_c_0) (TRef.of (T := ⟨S32x16384x1, .i32⟩) main_call0_v2) (broadcastInDim S32x16384x1 ![] bcast_S_S32x16384x1),
    TRef.binary (TRef.of (T := ⟨S32x16384x1, .i32⟩) main_v0) (TRef.of (T := ⟨S32x16384x1, .i32⟩) main_call0_v2) (TRef.of (T := ⟨S32x16384x1, .i32⟩) main_call0_v3) addi,
    TRef.ternary (TRef.of (T := ⟨S32x16384x1, .i1⟩) main_call0_v1) (TRef.of (T := ⟨S32x16384x1, .i32⟩) main_call0_v3) (TRef.of (T := ⟨S32x16384x1, .i32⟩) main_v0) (TRef.of (T := ⟨S32x16384x1, .i32⟩) main_call0_v4) select,
    TRef.nullary (TRef.of (T := ⟨S1, .i32⟩) main_call0_c_1) (constantI S1 32 255#32),
    TRef.nullary (TRef.of (T := ⟨S_, .i32⟩) main_call0_c_2) (constantI S_ 32 0#32),
    TRef.unary (TRef.of (T := ⟨S_, .i32⟩) main_call0_c_2) (TRef.of (T := ⟨S32x16384x1, .i32⟩) main_call0_v5) (broadcastInDim S32x16384x1 ![] bcast_S_S32x16384x1),
    TRef.binary (TRef.of (T := ⟨S32x16384x1, .i32⟩) main_call0_v4) (TRef.of (T := ⟨S32x16384x1, .i32⟩) main_call0_v5) (TRef.of (T := ⟨S32x16384x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S32x16384x1, .i32⟩) main_call0_v8) (broadcastInDim S32x16384x1 ![0, 1, 2] bcast_S1x1x1_S32x16384x1_0_1_2),
    TRef.binary (TRef.of (T := ⟨S32x16384x1, .i32⟩) main_call0_v4) (TRef.of (T := ⟨S32x16384x1, .i32⟩) main_call0_v8) (TRef.of (T := ⟨S32x16384x1, .i1⟩) main_call0_v9) (cmpi .sle),
    TRef.binary (TRef.of (T := ⟨S32x16384x1, .i1⟩) main_call0_v6) (TRef.of (T := ⟨S32x16384x1, .i1⟩) main_call0_v9) (TRef.of (T := ⟨S32x16384x1, .i1⟩) main_call0_v10) andi,
    TRef.nullary (TRef.of (T := ⟨S_, .i1⟩) main_call0_c_3) (constantI S_ 1 1#1),
    TRef.binary (TRef.of (T := ⟨S32x16384x1, .i1⟩) main_call0_v10) (TRef.of (T := ⟨S_, .i1⟩) main_call0_c_3) (TRef.of (T := ⟨S32x16384, .i1⟩) main_call0_v11) (fun x v => Host.reduce IntOp.andi x v reducesTo_S32x16384x1_S32x16384_d2 h_S_),
    TRef.binary (TRef.of (T := ⟨S32x256x128, .f32⟩) main_arg2) (TRef.of (T := ⟨S32x16384x1, .i32⟩) main_call0_v4) (TRef.of (T := ⟨S32x16384x128, .f32⟩) main_call0_v12) (fun x i => Host.gather gather_S32x256x128_S32x16384x1_S32x16384x128_2_1_0_0_1_2_11128 x i),
    TRef.unary (TRef.of (T := ⟨S32x16384, .i1⟩) main_call0_v11) (TRef.of (T := ⟨S32x16384x128, .i1⟩) main_call0_v13) (broadcastInDim S32x16384x128 ![0, 1] bcast_S32x16384_S32x16384x128_0_1),
    TRef.nullary (TRef.of (T := ⟨S_, .f32⟩) main_call0_cst) (constant S_ .f32 0x7FC00000#32),
    TRef.unary (TRef.of (T := ⟨S_, .f32⟩) main_call0_cst) (TRef.of (T := ⟨S32x16384x128, .f32⟩) main_call0_v14) (broadcastInDim S32x16384x128 ![] bcast_S_S32x16384x128),
    TRef.ternary (TRef.of (T := ⟨S32x16384x128, .i1⟩) main_call0_v13) (TRef.of (T := ⟨S32x16384x128, .f32⟩) main_call0_v12) (TRef.of (T := ⟨S32x16384x128, .f32⟩) main_call0_v14) (TRef.of (T := ⟨S32x16384x128, .f32⟩) main_v1) select ]

/-- The six operations after the gather. -/
abbrev opsRest : List (HloOp τ sig (Elt F)) :=
  [ unary main_v1 main_v2 ((transpose S16384x32x128 [1, 0, 2] · transposes_S32x16384x128_S16384x32x128_1_0_2) : (⟨S32x16384x128, .f32⟩ : BufTy).Contents (Elt F) → (⟨S16384x32x128, .f32⟩ : BufTy).Contents (Elt F)),
    reshape main_v2 main_v3 rfl shapeCasts_S16384x32x128_S16384x4096,
    binary main_arg0 main_v3 main_v4 ((fun l r => Host.dotGeneral dot_S4x2048x4096_S16384x4096_S4x2048x16384_2_1_01_0_n_n none l r) : (⟨S4x2048x4096, .f32⟩ : BufTy).Contents (Elt F) → (⟨S16384x4096, .f32⟩ : BufTy).Contents (Elt F) → (⟨S4x2048x16384, .f32⟩ : BufTy).Contents (Elt F)),
    unary main_arg3 main_v5 (broadcastInDim S1x1x16384 ![2] bcast_S16384_S1x1x16384_2 : (⟨S16384, .f32⟩ : BufTy).Contents (Elt F) → (⟨S1x1x16384, .f32⟩ : BufTy).Contents (Elt F)),
    unary main_v5 main_v6 (broadcastInDim S4x2048x16384 ![0, 1, 2] bcast_S1x1x16384_S4x2048x16384_0_1_2 : (⟨S1x1x16384, .f32⟩ : BufTy).Contents (Elt F) → (⟨S4x2048x16384, .f32⟩ : BufTy).Contents (Elt F)),
    binary main_v4 main_v6 main_v7 (addf : (⟨S4x2048x16384, .f32⟩ : BufTy).Contents (Elt F) → (⟨S4x2048x16384, .f32⟩ : BufTy).Contents (Elt F) → (⟨S4x2048x16384, .f32⟩ : BufTy).Contents (Elt F)) ]

/-- All 29 operations of the program, in order. -/
abbrev ops : List (HloOp τ sig (Elt F)) :=
  [ unary main_arg1 main_v0 (broadcastInDim S32x16384x1 ![0, 1] bcast_S32x16384_S32x16384x1_0_1 : (⟨S32x16384, .i32⟩ : BufTy).Contents (Elt F) → (⟨S32x16384x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S32x16384x1, .i32⟩) main_call0_v0) (broadcastInDim S32x16384x1 ![] bcast_S_S32x16384x1),
    TRef.binary (TRef.of (T := ⟨S32x16384x1, .i32⟩) main_v0) (TRef.of (T := ⟨S32x16384x1, .i32⟩) main_call0_v0) (TRef.of (T := ⟨S32x16384x1, .i1⟩) main_call0_v1) (cmpi .slt),
    TRef.nullary (TRef.of (T := ⟨S_, .i32⟩) main_call0_c_0) (constantI S_ 32 256#32),
    TRef.unary (TRef.of (T := ⟨S_, .i32⟩) main_call0_c_0) (TRef.of (T := ⟨S32x16384x1, .i32⟩) main_call0_v2) (broadcastInDim S32x16384x1 ![] bcast_S_S32x16384x1),
    TRef.binary (TRef.of (T := ⟨S32x16384x1, .i32⟩) main_v0) (TRef.of (T := ⟨S32x16384x1, .i32⟩) main_call0_v2) (TRef.of (T := ⟨S32x16384x1, .i32⟩) main_call0_v3) addi,
    TRef.ternary (TRef.of (T := ⟨S32x16384x1, .i1⟩) main_call0_v1) (TRef.of (T := ⟨S32x16384x1, .i32⟩) main_call0_v3) (TRef.of (T := ⟨S32x16384x1, .i32⟩) main_v0) (TRef.of (T := ⟨S32x16384x1, .i32⟩) main_call0_v4) select,
    TRef.nullary (TRef.of (T := ⟨S1, .i32⟩) main_call0_c_1) (constantI S1 32 255#32),
    TRef.nullary (TRef.of (T := ⟨S_, .i32⟩) main_call0_c_2) (constantI S_ 32 0#32),
    TRef.unary (TRef.of (T := ⟨S_, .i32⟩) main_call0_c_2) (TRef.of (T := ⟨S32x16384x1, .i32⟩) main_call0_v5) (broadcastInDim S32x16384x1 ![] bcast_S_S32x16384x1),
    TRef.binary (TRef.of (T := ⟨S32x16384x1, .i32⟩) main_call0_v4) (TRef.of (T := ⟨S32x16384x1, .i32⟩) main_call0_v5) (TRef.of (T := ⟨S32x16384x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S32x16384x1, .i32⟩) main_call0_v8) (broadcastInDim S32x16384x1 ![0, 1, 2] bcast_S1x1x1_S32x16384x1_0_1_2),
    TRef.binary (TRef.of (T := ⟨S32x16384x1, .i32⟩) main_call0_v4) (TRef.of (T := ⟨S32x16384x1, .i32⟩) main_call0_v8) (TRef.of (T := ⟨S32x16384x1, .i1⟩) main_call0_v9) (cmpi .sle),
    TRef.binary (TRef.of (T := ⟨S32x16384x1, .i1⟩) main_call0_v6) (TRef.of (T := ⟨S32x16384x1, .i1⟩) main_call0_v9) (TRef.of (T := ⟨S32x16384x1, .i1⟩) main_call0_v10) andi,
    TRef.nullary (TRef.of (T := ⟨S_, .i1⟩) main_call0_c_3) (constantI S_ 1 1#1),
    TRef.binary (TRef.of (T := ⟨S32x16384x1, .i1⟩) main_call0_v10) (TRef.of (T := ⟨S_, .i1⟩) main_call0_c_3) (TRef.of (T := ⟨S32x16384, .i1⟩) main_call0_v11) (fun x v => Host.reduce IntOp.andi x v reducesTo_S32x16384x1_S32x16384_d2 h_S_),
    TRef.binary (TRef.of (T := ⟨S32x256x128, .f32⟩) main_arg2) (TRef.of (T := ⟨S32x16384x1, .i32⟩) main_call0_v4) (TRef.of (T := ⟨S32x16384x128, .f32⟩) main_call0_v12) (fun x i => Host.gather gather_S32x256x128_S32x16384x1_S32x16384x128_2_1_0_0_1_2_11128 x i),
    TRef.unary (TRef.of (T := ⟨S32x16384, .i1⟩) main_call0_v11) (TRef.of (T := ⟨S32x16384x128, .i1⟩) main_call0_v13) (broadcastInDim S32x16384x128 ![0, 1] bcast_S32x16384_S32x16384x128_0_1),
    TRef.nullary (TRef.of (T := ⟨S_, .f32⟩) main_call0_cst) (constant S_ .f32 0x7FC00000#32),
    TRef.unary (TRef.of (T := ⟨S_, .f32⟩) main_call0_cst) (TRef.of (T := ⟨S32x16384x128, .f32⟩) main_call0_v14) (broadcastInDim S32x16384x128 ![] bcast_S_S32x16384x128),
    TRef.ternary (TRef.of (T := ⟨S32x16384x128, .i1⟩) main_call0_v13) (TRef.of (T := ⟨S32x16384x128, .f32⟩) main_call0_v12) (TRef.of (T := ⟨S32x16384x128, .f32⟩) main_call0_v14) (TRef.of (T := ⟨S32x16384x128, .f32⟩) main_v1) select,
    unary main_v1 main_v2 ((transpose S16384x32x128 [1, 0, 2] · transposes_S32x16384x128_S16384x32x128_1_0_2) : (⟨S32x16384x128, .f32⟩ : BufTy).Contents (Elt F) → (⟨S16384x32x128, .f32⟩ : BufTy).Contents (Elt F)),
    reshape main_v2 main_v3 rfl shapeCasts_S16384x32x128_S16384x4096,
    binary main_arg0 main_v3 main_v4 ((fun l r => Host.dotGeneral dot_S4x2048x4096_S16384x4096_S4x2048x16384_2_1_01_0_n_n none l r) : (⟨S4x2048x4096, .f32⟩ : BufTy).Contents (Elt F) → (⟨S16384x4096, .f32⟩ : BufTy).Contents (Elt F) → (⟨S4x2048x16384, .f32⟩ : BufTy).Contents (Elt F)),
    unary main_arg3 main_v5 (broadcastInDim S1x1x16384 ![2] bcast_S16384_S1x1x16384_2 : (⟨S16384, .f32⟩ : BufTy).Contents (Elt F) → (⟨S1x1x16384, .f32⟩ : BufTy).Contents (Elt F)),
    unary main_v5 main_v6 (broadcastInDim S4x2048x16384 ![0, 1, 2] bcast_S1x1x16384_S4x2048x16384_0_1_2 : (⟨S1x1x16384, .f32⟩ : BufTy).Contents (Elt F) → (⟨S4x2048x16384, .f32⟩ : BufTy).Contents (Elt F)),
    binary main_v4 main_v6 main_v7 (addf : (⟨S4x2048x16384, .f32⟩ : BufTy).Contents (Elt F) → (⟨S4x2048x16384, .f32⟩ : BufTy).Contents (Elt F) → (⟨S4x2048x16384, .f32⟩ : BufTy).Contents (Elt F)) ]

theorem main_eq (c : Dev nD) : main (F := F) c = seq ops := rfl
theorem ops_split : (ops : List (HloOp τ sig (Elt F))) = opsGather ++ opsRest := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., binary_bufs_sub .., unary_bufs_sub .., unary_bufs_sub .., binary_bufs_sub ..⟩

variable (m : (ℓ : Loc nD τ sig) → Buf (Elt F) ℓ)

/-- What the buffers hold once the gather is done. -/
def pre (c : Dev nD) : Valuation τ sig (Elt F) := after opsGather (launchContents m c)

/-- Every buffer ends as the six operations after the gather leave it. -/
theorem after_split (c : Dev nD) (b : Ref sig .tc) :
    after ops (launchContents m c) (Proc.devRef .tc b) = after opsRest (pre m c) (Proc.devRef .tc b) := by
  rw [ops_split, Cert.Lib.AfterSsa.after_append]
  rfl

set_option maxRecDepth 100000 in
set_option maxHeartbeats 4000000 in
/-- The gather leaves the gathered weights in its result buffer. -/
theorem pre_weights (c : Dev nD) :
    pre m c (Proc.devRef .tc main_v1) = gathered (m ((c.tc : Thread nD τ).loc main_arg1)) (m ((c.tc : Thread nD τ).loc main_arg2)) := by
  unfold pre
  simp only [opsGather]
  after_results_simp
  simp only [cast_eq]
  rfl

set_option maxRecDepth 100000 in
/-- The gather touches no argument. -/
theorem pre_arg0 (c : Dev nD) : pre m c (Proc.devRef .tc main_arg0) = m ((c.tc : Thread nD τ).loc main_arg0) := by
  unfold pre; simp only [opsGather]; after_results_simp <;> rfl
set_option maxRecDepth 100000 in
theorem pre_arg1 (c : Dev nD) : pre m c (Proc.devRef .tc main_arg1) = m ((c.tc : Thread nD τ).loc main_arg1) := by
  unfold pre; simp only [opsGather]; after_results_simp <;> rfl
set_option maxRecDepth 100000 in
theorem pre_arg2 (c : Dev nD) : pre m c (Proc.devRef .tc main_arg2) = m ((c.tc : Thread nD τ).loc main_arg2) := by
  unfold pre; simp only [opsGather]; after_results_simp <;> rfl
set_option maxRecDepth 100000 in
theorem pre_arg3 (c : Dev nD) : pre m c (Proc.devRef .tc main_arg3) = m ((c.tc : Thread nD τ).loc main_arg3) := by
  unfold pre; simp only [opsGather]; after_results_simp <;> rfl

/-- The result buffer ends at `result` of the arguments. -/
theorem out_eq (c : Dev nD) :
    after ops (launchContents m c) (Proc.devRef .tc main_v7)
      = result (m ((c.tc : Thread nD τ).loc main_arg0)) (m ((c.tc : Thread nD τ).loc main_arg1))
          (m ((c.tc : Thread nD τ).loc main_arg2)) (m ((c.tc : Thread nD τ).loc main_arg3)) := by
  rw [after_split]
  have e0 := pre_arg0 m c
  have e3 := pre_arg3 m c
  have ew := pre_weights m c
  generalize pre m c = W at e0 e3 ew ⊢
  simp only [opsRest]
  after_results
  rw [e0, e3, ew]
  rfl

theorem arg0_eq (c : Dev nD) : after ops (launchContents m c) (Proc.devRef .tc main_arg0) = m ((c.tc : Thread nD τ).loc main_arg0) := by
  rw [after_split]; have e := pre_arg0 m c; generalize pre m c = W at e ⊢; simp only [opsRest]; after_results; exact e
theorem arg1_eq (c : Dev nD) : after ops (launchContents m c) (Proc.devRef .tc main_arg1) = m ((c.tc : Thread nD τ).loc main_arg1) := by
  rw [after_split]; have e := pre_arg1 m c; generalize pre m c = W at e ⊢; simp only [opsRest]; after_results; exact e
theorem arg2_eq (c : Dev nD) : after ops (launchContents m c) (Proc.devRef .tc main_arg2) = m ((c.tc : Thread nD τ).loc main_arg2) := by
  rw [after_split]; have e := pre_arg2 m c; generalize pre m c = W at e ⊢; simp only [opsRest]; after_results; exact e
theorem arg3_eq (c : Dev nD) : after ops (launchContents m c) (Proc.devRef .tc main_arg3) = m ((c.tc : Thread nD τ).loc main_arg3) := by
  rw [after_split]; have e := pre_arg3 m c; generalize pre m c = W at e ⊢; simp only [opsRest]; after_results; exact e

/-- On every device, from any memory with zero counters: every weakly fair execution of the reference terminates with its
    result at `result` of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v7)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v7).trans (out_eq m c), (h c main_arg0).trans (arg0_eq m c),
      (h c main_arg1).trans (arg1_eq m c), (h c main_arg2).trans (arg2_eq m c), (h c main_arg3).trans (arg3_eq m c)⟩)
    (run_seq scopedRefs_eq scopedSems_eq defs main (fun _ => ops) main_eq (fun _ => ops_sub) m ρ)

end Cert.ReferenceIdeal.RefRun

end
-- ==== Proof.RefValue.lean ====
/-
  The reference's result is the linear layer of the specification.

  The reference contracts the activations' last axis with the last axis of the 16384 x 4096 weight matrix: over the extended
  reals that is the sum over the 4096 positions j of `x (b, s, j) · W (v, j)`. Row v of the weight matrix is the gathered
  weights with their first two axes exchanged, flattened: `W (v, h · 128 + d) = w (h, v, d)`. The bias is repeated along the
  first two axes and added.
-/
import proofs.«166825_j80917183856748_1_alg».proof.Proof.RefRun
import proofs.«166825_j80917183856748_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Spec

/-- The left operand's first two coordinates are the output entry's, the right operand's first is the output's last. -/
theorem lhs_coord0 (i : S4x2048x16384.Idx) (q : dot_S4x2048x4096_S16384x4096_S4x2048x16384_2_1_01_0_n_n.contr.Idx) : (dot_S4x2048x4096_S16384x4096_S4x2048x16384_2_1_01_0_n_n.lhsIdx i q 0).val = (i 0).val := by
  unfold DotDims.lhsIdx
  rw [dif_neg (show ¬(0 : Fin S4x2048x4096.rank) ∈ dot_S4x2048x4096_S16384x4096_S4x2048x16384_2_1_01_0_n_n.lhsBatch by decide), dif_pos (show (0 : Fin S4x2048x4096.rank) ∈ dot_S4x2048x4096_S16384x4096_S4x2048x16384_2_1_01_0_n_n.lhsNonContracting by decide)]
  rfl
theorem lhs_coord1 (i : S4x2048x16384.Idx) (q : dot_S4x2048x4096_S16384x4096_S4x2048x16384_2_1_01_0_n_n.contr.Idx) : (dot_S4x2048x4096_S16384x4096_S4x2048x16384_2_1_01_0_n_n.lhsIdx i q 1).val = (i 1).val := by
  unfold DotDims.lhsIdx
  rw [dif_neg (show ¬(1 : Fin S4x2048x4096.rank) ∈ dot_S4x2048x4096_S16384x4096_S4x2048x16384_2_1_01_0_n_n.lhsBatch by decide), dif_pos (show (1 : Fin S4x2048x4096.rank) ∈ dot_S4x2048x4096_S16384x4096_S4x2048x16384_2_1_01_0_n_n.lhsNonContracting by decide)]
  rfl
theorem rhs_coord0 (i : S4x2048x16384.Idx) (q : dot_S4x2048x4096_S16384x4096_S4x2048x16384_2_1_01_0_n_n.contr.Idx) : (dot_S4x2048x4096_S16384x4096_S4x2048x16384_2_1_01_0_n_n.rhsIdx i q 0).val = (i 2).val := by
  unfold DotDims.rhsIdx
  rw [dif_neg (show ¬(0 : Fin S16384x4096.rank) ∈ dot_S4x2048x4096_S16384x4096_S4x2048x16384_2_1_01_0_n_n.rhsBatch by decide), dif_pos (show (0 : Fin S16384x4096.rank) ∈ dot_S4x2048x4096_S16384x4096_S4x2048x16384_2_1_01_0_n_n.rhsNonContracting by decide)]
  rfl

/-- The contraction at output entry (b, s, v): the sum over the 4096 positions. -/
theorem dot_apply (x : FVec Ideal S4x2048x4096 .f32) (W : FVec Ideal S16384x4096 .f32) (b : Fin 4) (s : Fin 2048) (v : Fin 16384) :
    Host.dotGeneral dot_S4x2048x4096_S16384x4096_S4x2048x16384_2_1_01_0_n_n none x W (ix3 b s v) = ∑ j : Fin 4096, x (ix3 b s j) * W (ix2 v j) := by
  simp only [Host.dotGeneral]
  rw [Ideal.dotGeneral_apply, ← Equiv.sum_comp (contrEquiv1 dot_S4x2048x4096_S16384x4096_S4x2048x16384_2_1_01_0_n_n 4096 rfl rfl).symm]
  refine Finset.sum_congr rfl fun k _ => ?_
  have hk := contrEquiv1_symm_val dot_S4x2048x4096_S16384x4096_S4x2048x16384_2_1_01_0_n_n 4096 rfl rfl k
  have el : dot_S4x2048x4096_S16384x4096_S4x2048x16384_2_1_01_0_n_n.lhsIdx (ix3 b s v) ((contrEquiv1 dot_S4x2048x4096_S16384x4096_S4x2048x16384_2_1_01_0_n_n 4096 rfl rfl).symm k) = ix3 b s k := funext fun a => Fin.ext (by
    match a with
    | ⟨0, _⟩ => exact lhs_coord0 _ _
    | ⟨1, _⟩ => exact lhs_coord1 _ _
    | ⟨2, _⟩ => exact (dot_S4x2048x4096_S16384x4096_S4x2048x16384_2_1_01_0_n_n.lhsIdx_val_of_single rfl _ _).trans hk)
  have er : dot_S4x2048x4096_S16384x4096_S4x2048x16384_2_1_01_0_n_n.rhsIdx (ix3 b s v) ((contrEquiv1 dot_S4x2048x4096_S16384x4096_S4x2048x16384_2_1_01_0_n_n 4096 rfl rfl).symm k) = ix2 v k := funext fun a => Fin.ext (by
    match a with
    | ⟨0, _⟩ => exact rhs_coord0 _ _
    | ⟨1, _⟩ => exact (dot_S4x2048x4096_S16384x4096_S4x2048x16384_2_1_01_0_n_n.rhsIdx_val_of_single rfl _ _).trans hk)
  rw [el, er]

/-- Row v of the weight matrix at position j is the gathered weights at (codebook of j, v, place of j). -/
theorem weight_apply (w : FVec Ideal S32x16384x128 .f32) (v : Fin 16384) (j : Fin 4096) :
    shapeCast S16384x4096 (transpose S16384x32x128 [1, 0, 2] w transposes_S32x16384x128_S16384x32x128_1_0_2)
        shapeCasts_S16384x32x128_S16384x4096 (ix2 v j)
      = w (ix3 (book j) v (place j)) := by
  refine (shapeCast_apply _ _ (ix2 v j) (ix3 v (book j) (place j)) ?_).trans ?_
  · rw [Shape.rowMajor_val_three, Shape.rowMajor_val_two]
    show (v.val * 32 + (book j).val) * 128 + (place j).val = v.val * 4096 + j.val
    have := book_place j
    omega
  · exact transpose_apply [1, 0, 2] w transposes_S32x16384x128_S16384x32x128_1_0_2 (ix3 v (book j) (place j)) (ix3 (book j) v (place j))
      (fun b => match b with | ⟨0, _⟩ => rfl | ⟨1, _⟩ => rfl | ⟨2, _⟩ => rfl)

/-- The bias repeated along the first two axes, at (b, s, v), is the bias at v. -/
theorem bias_apply (bias : FVec Ideal S16384 .f32) (b : Fin 4) (s : Fin 2048) (v : Fin 16384) :
    broadcastInDim S4x2048x16384 ![0, 1, 2] bcast_S1x1x16384_S4x2048x16384_0_1_2
        (broadcastInDim S1x1x16384 ![2] bcast_S16384_S1x1x16384_2 bias) (ix3 b s v) = bias (ix1 v) := by
  refine (broadcastInDim_apply _ bcast_S1x1x16384_S4x2048x16384_0_1_2 _ (ix3 b s v) (ix3 (0 : Fin 1) (0 : Fin 1) v) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show v.val = if (16384 : Nat) = 1 then 0 else v.val; rw [if_neg (by decide)])).trans ?_
  exact broadcastInDim_apply _ bcast_S16384_S1x1x16384_2 bias (ix3 (0 : Fin 1) (0 : Fin 1) v) (ix1 v) (fun a => match a with
    | ⟨0, _⟩ => by show v.val = if (16384 : Nat) = 1 then 0 else v.val; rw [if_neg (by decide)])

/-- THE REFERENCE IS THE SPECIFICATION. -/
theorem result_eq (x : FVec Ideal S4x2048x4096 .f32) (codes : (⟨S32x16384, .i32⟩ : BufTy).Contents (Elt Ideal))
    (books : FVec Ideal S32x256x128 .f32) (bias : FVec Ideal S16384 .f32) :
    RefRun.result (F := Ideal) x codes books bias = linear x (RefRun.gathered (F := Ideal) codes books) bias := by
  funext i
  obtain ⟨b, s, v, rfl⟩ : ∃ (b : Fin 4) (s : Fin 2048) (v : Fin 16384), i = ix3 b s v := ⟨i 0, i 1, i 2, eq_ix3 i⟩
  rw [linear_apply]
  unfold RefRun.result
  refine (addf_apply _ _ _).trans ?_
  refine congrArg₂ (· + ·) ?_ (bias_apply bias b s v)
  refine (dot_apply x _ b s v).trans (Finset.sum_congr rfl fun j _ => ?_)
  exact congrArg (x (ix3 b s j) * ·) (weight_apply _ v j)

end Cert.ReferenceIdeal.RefValue

end
-- ==== Proof.lean ====
/-
  A linear layer whose weight matrix is stored as 32 codebooks of 256 vectors of length 128 and, per output column, one code
  per codebook: `W (v, h · 128 + d) = books (h, codes (h, v), d)`, and `y = x · Wᵀ + bias` for activations of shape
  4 x 2048 x 4096, with 16384 output columns.

  Both programs first gather `w (h, v, d) = books (h, codes (h, v), d)` with the same 23 host operations (a negative code is
  shifted up by 256, and an entry whose code is still out of range gets the fill value): that array is one term of the
  arguments on both sides and is never opened.

  The reference lays the gathered weights out as a 16384 x 4096 matrix and contracts the activations' last axis with its
  last axis in one operation, then adds the bias. The kernel lays them out as a 4096 x 16384 matrix, flattens the
  activations to 8192 x 4096, and runs a tiled matrix product over a 16 x 8 x 4 grid: the output block (row block, column
  block) of 512 x 2048 entries is accumulated in a scratch block over the four contraction blocks of 1024 positions — reset to
  zero at the first, the block's product added at each — and written out, with the bias row added, at the fourth. The change
  to the 16-bit format before the product is the identity on the extended reals, a matrix product into a zero accumulator is
  the plain sum of products, and the four block sums added in order are the sum over all 4096 positions because addition of
  extended reals is commutative and associative. No finiteness of the inputs is used.

  So both results are `y (b, s, v) = ∑ over j < 4096 of x (b, s, j) · w (j / 128, v, j % 128) + bias (v)`.
  The three frames are the generated frame runs of the two kernels and the reference's straight-line run; nothing was
  rewritten by the idealization, so that conjunct is trivial.
-/
import proofs.«166825_j80917183856748_1_alg».proof.Defs
import proofs.«166825_j80917183856748_1_alg».proof.Proof.Gen.Kernel
import proofs.«166825_j80917183856748_1_alg».proof.Proof.Gen.Kernel.Frame
import proofs.«166825_j80917183856748_1_alg».proof.Proof.Gen.KernelIdeal
import proofs.«166825_j80917183856748_1_alg».proof.Proof.Gen.KernelIdeal.Frame
import proofs.«166825_j80917183856748_1_alg».proof.Proof.Gen.ReferenceIdeal
import proofs.«166825_j80917183856748_1_alg».proof.Proof.Gen.Pre_finite_inputs
import proofs.«166825_j80917183856748_1_alg».proof.Proof.KernelRun
import proofs.«166825_j80917183856748_1_alg».proof.Proof.RefValue
import Idealize.ShloMosaic.Adequacy
import Idealize.ShloMosaic.Init

noncomputable section

namespace Cert.Proof

open Idealize.ShloMosaic Idealize.ShloMosaic.TcCoe Idealize.SL.Sem

/-- The two programs' gathers are the same function of the codes and the codebooks. -/
theorem gathered_same (codes : (⟨Cert.KernelIdeal.S32x16384, .i32⟩ : BufTy).Contents (Elt Ideal))
    (books : (⟨Cert.KernelIdeal.S32x256x128, .f32⟩ : BufTy).Contents (Elt Ideal)) :
    Cert.ReferenceIdeal.RefRun.gathered (F := Ideal) codes books = Cert.KernelIdeal.HostPrefix.gathered (F := Ideal) codes books := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the specification's linear layer of arguments that agree. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (Cert.KernelIdeal.HostPrefix.gathered (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)),
    Cert.KernelIdeal.KernelRun.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2.1, (hagree c).2.2.1, (hagree c).2.2.2, gathered_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
